-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8192x768 : Shape := ⟨2, ![8192, 768]⟩
abbrev S768x2304 : Shape := ⟨2, ![768, 2304]⟩
abbrev S_ : Shape := ⟨0, ![]⟩
abbrev S2304 : Shape := ⟨1, ![2304]⟩
abbrev S8192x2304 : Shape := ⟨2, ![8192, 2304]⟩
abbrev S512x768 : Shape := ⟨2, ![512, 768]⟩
abbrev S512x2304 : Shape := ⟨2, ![512, 2304]⟩
abbrev S1x2304 : Shape := ⟨2, ![1, 2304]⟩
abbrev S1024x128 : Shape := ⟨2, ![1024, 128]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1024x768 : Shape := ⟨2, ![1024, 768]⟩
abbrev S1x768 : Shape := ⟨2, ![1, 768]⟩

abbrev nBuf : Space → Nat
  | .hbm => 13
  | .vmem => 20
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S768x2304, .f32⟩
  | .hbm, ⟨6, _⟩ => ⟨S768x768, .f32⟩
  | .hbm, ⟨7, _⟩ => ⟨S_, .f32⟩
  | .hbm, ⟨8, _⟩ => ⟨S2304, .f32⟩
  | .hbm, ⟨9, _⟩ => ⟨S8192x2304, .bf16⟩
  | .hbm, ⟨10, _⟩ => ⟨S8192x768, .bf16⟩
  | .hbm, ⟨11, _⟩ => ⟨S8192x768, .f32⟩
  | .hbm, ⟨12, _⟩ => ⟨S8x1024x768, .f32⟩
  | .local _ .vmem, ⟨0, _⟩ => ⟨S512x768, .f32⟩
  | .local _ .vmem, ⟨1, _⟩ => ⟨S512x768, .f32⟩
  | .local _ .vmem, ⟨2, _⟩ => ⟨S768x2304, .f32⟩
  | .local _ .vmem, ⟨3, _⟩ => ⟨S2304, .f32⟩
  | .local _ .vmem, ⟨4, _⟩ => ⟨S512x2304, .bf16⟩
  | .local _ .vmem, ⟨5, _⟩ => ⟨S512x2304, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x768, .bf16⟩
  | .local _ .vmem, ⟨15, _⟩ => ⟨S1024x768, .bf16⟩
  | .local _ .vmem, ⟨16, _⟩ => ⟨S768x768, .f32⟩
  | .local _ .vmem, ⟨17, _⟩ => ⟨S768, .f32⟩
  | .local _ .vmem, ⟨18, _⟩ => ⟨S1024x768, .f32⟩
  | .local _ .vmem, ⟨19, _⟩ => ⟨S1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x1024x768_S8192x768 : S8x1024x768.ShapeCasts S8192x768
  transposes_S2304x768_S768x2304_1_0 : S2304x768.Transposes [1, 0] S768x2304
  transposes_S768x768_S768x768_1_0 : S768x768.Transposes [1, 0] S768x768
  bcast_S_S2304 : S_.BroadcastsInDim S2304 (![] : Fin 0 → Fin S2304.rank)
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S2304 : S2304.ShapeCasts S2304
  shapeCasts_S2304_S1x2304 : S2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  inb_S1024x128_S1024x64_0_0 : ∀ a, (![0, 0] : Fin 2 → Nat) a + S1024x64.size a ≤ S1024x128.size a
  h_S1024x64 : 0 < S1024x64.numel
  shapeCasts_S1024x64_S1024x64 : S1024x64.ShapeCasts S1024x64
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  packedbf16_S1024x128_S1024x64_0_0 : (Rect.unit (s := S1024x128) ![0, 0] S1024x64.size inb_S1024x128_S1024x64_0_0).PackedRows (EltTy.packing .bf16)
  inb_S1024x128_S1024x64_0_64 : ∀ a, (![0, 64] : Fin 2 → Nat) a + S1024x64.size a ≤ S1024x128.size a
  packedbf16_S1024x128_S1024x64_0_64 : (Rect.unit (s := S1024x128) ![0, 64] S1024x64.size inb_S1024x128_S1024x64_0_64).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  shapeCasts_S8192x768_S8x1024x768 : S8192x768.ShapeCasts S8x1024x768
  dot_S512x768_S768x2304_S512x2304_1_0_0_1_n_n_wf : DotDims.WF S512x768 S768x2304 S512x2304 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S8192x2304.size a
  hwx0_3 : ∀ i : grid0.Coords, EltTy.bits .bf16 = 32 ∨ (Rect.block (s := S8192x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x2304.size a
  hwx1_0 : ∀ i : grid1.Coords, EltTy.bits .bf16 = 32 ∨ (Rect.block (s := S8192x2304) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x2304.size a
  hwx1_1 : ∀ i : grid1.Coords, EltTy.bits .bf16 = 32 ∨ (Rect.block (s := S8192x2304) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x2304.size a
  hwx1_2 : ∀ i : grid1.Coords, EltTy.bits .bf16 = 32 ∨ (Rect.block (s := S8192x2304) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x768.size a
  hwx1_3 : ∀ i : grid1.Coords, EltTy.bits .bf16 = 32 ∨ (Rect.block (s := S8192x768) S1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S8192x768.size a
  hwx2_0 : ∀ i : grid2.Coords, EltTy.bits .bf16 = 32 ∨ (Rect.block (s := S8192x768) S1024x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x768.size a ≤ S8192x768.size a
  hwx2_3 : ∀ i : grid2.Coords, EltTy.bits .f32 = 32 ∨ (Rect.block (s := S8192x768) S1024x768.size (cc2_transform_3 i) (hinb2_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x3x12x64, .f32⟩
  | .hbm, ⟨6, _⟩ => ⟨S3x8x12x1024x64, .f32⟩
  | .hbm, ⟨7, _⟩ => ⟨S1x8x12x1024x64, .f32⟩
  | .hbm, ⟨8, _⟩ => ⟨S8x12x1024x64, .f32⟩
  | .hbm, ⟨9, _⟩ => ⟨S1x8x12x1024x64, .f32⟩
  | .hbm, ⟨10, _⟩ => ⟨S8x12x1024x64, .f32⟩
  | .hbm, ⟨11, _⟩ => ⟨S1x8x12x1024x64, .f32⟩
  | .hbm, ⟨12, _⟩ => ⟨S8x12x1024x64, .f32⟩
  | .hbm, ⟨13, _⟩ => ⟨S8x12x1024x1024, .f32⟩
  | .hbm, ⟨14, _⟩ => ⟨S_, .f32⟩
  | .hbm, ⟨15, _⟩ => ⟨S8x12x1024x1024, .f32⟩
  | .hbm, ⟨16, _⟩ => ⟨S8x12x1024x1024, .f32⟩
  | .hbm, ⟨17, _⟩ => ⟨S_, .f32⟩
  | .hbm, ⟨18, _⟩ => ⟨S8x12x1024, .f32⟩
  | .hbm, ⟨19, _⟩ => ⟨S_, .f32⟩
  | .hbm, ⟨20, _⟩ => ⟨S8x12x1024, .f32⟩
  | .hbm, ⟨21, _⟩ => ⟨S8x12x1024, .f32⟩
  | .hbm, ⟨22, _⟩ => ⟨S8x12x1024x1, .f32⟩
  | .hbm, ⟨23, _⟩ => ⟨S8x12x1024x1024, .f32⟩
  | .hbm, ⟨24, _⟩ => ⟨S8x12x1024x1024, .f32⟩
  | .hbm, ⟨25, _⟩ => ⟨S8x12x1024x1024, .f32⟩
  | .hbm, ⟨26, _⟩ => ⟨S_, .f32⟩
  | .hbm, ⟨27, _⟩ => ⟨S8x12x1024, .f32⟩
  | .hbm, ⟨28, _⟩ => ⟨S8x12x1024x1, .f32⟩
  | .hbm, ⟨29, _⟩ => ⟨S8x12x1024x1024, .f32⟩
  | .hbm, ⟨30, _⟩ => ⟨S8x12x1024x1024, .f32⟩
  | .hbm, ⟨31, _⟩ => ⟨S8x12x1024x64, .f32⟩
  | .hbm, ⟨32, _⟩ => ⟨S8x1024x12x64, .f32⟩
  | .hbm, ⟨33, _⟩ => ⟨S8x1024x768, .f32⟩
  | .hbm, ⟨34, _⟩ => ⟨S8x1024x768, .f32⟩
  | .hbm, ⟨35, _⟩ => ⟨S1x1x768, .f32⟩
  | .hbm, ⟨36, _⟩ => ⟨S8x1024x768, .f32⟩
  | .hbm, ⟨37, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.K.Outs.lean ====
/-
  What each kernel body leaves in its output block, as a function of the input blocks it is called on.

  Region 0 (the fused q/k/v projection): one store of the whole [512, 2304] block, the product of the
  [512, 768] row block of x with the whole transposed weight, plus the (zero) bias row.
  Region 1 (attention, two heads per point): the left 64 columns of the [1024, 128] output block are head
  one's softmax(q kᵀ / 8) v computed from the left halves of the q, k, v blocks; the right 64 columns are
  head two's, from the right halves.
  Region 2 (the output projection): one store of the whole [1024, 768] block.
-/
import proofs.«152500_j40810779246812_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The rectangles the bodies access -/

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S512x2304 := Rect.unit (s := S512x2304) ![0, 0] S512x2304.size inb_S512x2304_S512x2304_0_0

/-- The left 64 columns of a [1024, 128] block. -/
abbrev r1_L : Rect S1024x128 := Rect.unit (s := S1024x128) ![0, 0] S1024x64.size inb_S1024x128_S1024x64_0_0
/-- The right 64 columns of a [1024, 128] block. -/
abbrev r1_R : Rect S1024x128 := Rect.unit (s := S1024x128) ![0, 64] S1024x64.size inb_S1024x128_S1024x64_0_64

abbrev r2_0 : Rect S1024x768 := Rect.unit (s := S1024x768) ![0, 0] S1024x768.size inb_S1024x768_S1024x768_0_0
abbrev r2_1 : Rect S768x768 := Rect.unit (s := S768x768) ![0, 0] S768x768.size inb_S768x768_S768x768_0_0
abbrev r2_2 : Rect S768 := Rect.unit (s := S768) ![0] S768.size inb_S768_S768_0

/-! ## The output blocks after the body -/

/-- Region 0's output block: its one store. -/
def out0_3 (x0 : Vec F S512x768 .f32) (x1 : Vec F S768x2304 .f32) (x2 : Vec F S2304 .f32) : Vec F S512x2304 .bf16 :=
  View.canon [⟨r0_3, k0_pay1 (View.ld x0 r0_0) (View.ld x1 r0_1) (View.ld x2 r0_2)⟩]

/-- Region 1's output block: the right half's store (the later one) first, then the left half's. -/
def out1_3 (x0 x1 x2 : Vec F S1024x128 .bf16) : Vec F S1024x128 .bf16 :=
  View.canon [⟨r1_R, k1_pay1 (k1_pay3 (View.ld x2 r1_R)) (k1_pay4 (View.ld x0 r1_R) (View.ld x1 r1_R)) (k1_pay5 (View.ld x0 r1_R) (View.ld x1 r1_R))⟩,
    ⟨r1_L, k1_pay2 (View.ld x0 r1_L) (View.ld x1 r1_L) (View.ld x2 r1_L)⟩]

/-- Region 2's output block: its one store. -/
def out2_3 (x0 : Vec F S1024x768 .bf16) (x1 : Vec F S768x768 .f32) (x2 : Vec F S768 .f32) : Vec F S1024x768 .f32 :=
  View.canon [⟨r2_0, k2_pay1 (View.ld x0 r2_0) (View.ld x1 r2_1) (View.ld x2 r2_2)⟩]

/-! ## The stores cover the blocks -/

theorem cover0_3 (p0 : Vec F S512x2304 .bf16) (y : S512x2304.Idx) :
    ∃ pc ∈ ([⟨r0_3, p0⟩] : List (View.Piece (Elt F) S512x2304 .bf16)), y ∈ pc.1.set :=
  View.cover_of_tiled [⟨r0_3, p0⟩] S512x2304.size (by rfl) y

theorem cover1_3 (p0 p1 : Vec F S1024x64 .bf16) (y : S1024x128.Idx) :
    ∃ pc ∈ ([⟨r1_R, p0⟩, ⟨r1_L, p1⟩] : List (View.Piece (Elt F) S1024x128 .bf16)), y ∈ pc.1.set :=
  View.cover_of_tiled [⟨r1_R, p0⟩, ⟨r1_L, p1⟩] S1024x64.size (by rfl) y

theorem cover2_3 (p0 : Vec F S1024x768 .f32) (y : S1024x768.Idx) :
    ∃ pc ∈ ([⟨r2_0, p0⟩] : List (View.Piece (Elt F) S1024x768 .f32)), y ∈ pc.1.set :=
  View.cover_of_tiled [⟨r2_0, p0⟩] S1024x768.size (by rfl) y

end Cert.Kernel.Hand

end
-- ==== Proof.K.Data.lean ====
/-
  The proof data of the three pipelines, each at a parameter `V`: the contents of the core's buffers when its region
  is entered. A window's block at a grid point is read off its array under `V`; after the body an input's staging
  buffer still holds its block and the output's holds the body's result on the input blocks.

  In region 1 the three input windows read ONE array (the fused q/k/v buffer) at three column offsets, so the array's
  full share is dealt among them: the left half to the q window, and the two halves of the right half to the k and
  v windows.
-/
import proofs.«152500_j40810779246812_2_alg».proof.Proof.K.Outs
import proofs.«152500_j40810779246812_2_alg».proof.Proof.Gen.Kernel.Launch
import proofs.«152500_j40810779246812_2_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! ## The windows' blocks -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The same for region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The proof data -/

/-- Region 0: every array held whole; the output block is the projection of the row block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Region 1: the q, k and v windows hold disjoint shares of the one array they read. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

/-- Region 2: every array held whole; the output block is the projection of the row block plus the bias row. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-! ## The data projected -/

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.Hand

end
-- ==== Proof.K.Body0.lean ====
/-
  The triple of region 0's body (the fused q/k/v projection) on whole staging memrefs.

  The body loads its three input blocks whole, loads the output block (a value it never uses), and stores
  the product-plus-bias over the whole output block. So from the inputs held at contents x0, x1, x2 and the
  output at anything, it ends with the inputs unchanged and the output block at its one store's value,
  which is the block out0_3 x0 x1 x2: one piece covering the block.
-/
import proofs.«152500_j40810779246812_2_alg».proof.Proof.K.Outs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Region 0's body, run on whole memrefs: inputs kept, the output block at `out0_3` of the inputs. -/
theorem sound_kernel0 (c : Dev nD) (E : Set ℕ) (i : grid0.Coords) (arg1 : Memref sig .tc .vmem S512x768 .f32) (harg1 : arg1.IsWhole) (arg2 : Memref sig .tc .vmem S768x2304 .f32) (harg2 : arg2.IsWhole) (arg3 : Memref sig .tc .vmem S2304 .f32) (harg3 : arg3.IsWhole) (arg4 : Memref sig .tc .vmem S512x2304 .bf16) (harg4 : arg4.IsWhole)
    (x0 : Vec F S512x768 .f32) (x1 : Vec F S768x2304 .f32) (x2 : Vec F S2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Hand

end
-- ==== Proof.K.Body1.lean ====
/-
  The triple of region 1's body (attention, two heads per point) on whole staging memrefs.

  The body works on the two 64-column halves of its [1024, 128] blocks in turn. For the left half it loads
  the left halves of q, k and v, loads the left half of the output block (a value it never uses) and stores
  head one's softmax(q kᵀ / 8) v there; for the right half it loads the right halves, loads the right half
  of the output block (again unused) and stores head two's result there. So from the inputs held at contents
  x0, x1, x2 and the output at anything, it ends with the inputs unchanged and the output block at its two
  stores, the later one (the right half) first: the block out1_3 x0 x1 x2. The two halves tile the block.
-/
import proofs.«152500_j40810779246812_2_alg».proof.Proof.K.Outs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Region 1's body, run on whole memrefs: inputs kept, the output block at `out1_3` of the inputs. -/
theorem sound_kernel1 (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole)
    (x0 x1 x2 : Vec F S1024x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

end Cert.Kernel.Hand

end
-- ==== Proof.K.Body2.lean ====
/-
  The triple of region 2's body (the output projection) on whole staging memrefs.

  The body loads its three input blocks whole, loads the output block (a value it never uses), and stores
  the product-plus-bias over the whole output block. So from the inputs held at contents x0, x1, x2 and the
  output at anything, it ends with the inputs unchanged and the output block at its one store's value,
  which is the block out2_3 x0 x1 x2: one piece covering the block.
-/
import proofs.«152500_j40810779246812_2_alg».proof.Proof.K.Outs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Region 2's body, run on whole memrefs: inputs kept, the output block at `out2_3` of the inputs. -/
theorem sound_kernel2 (c : Dev nD) (E : Set ℕ) (i : grid2.Coords) (arg1 : Memref sig .tc .vmem S1024x768 .bf16) (harg1 : arg1.IsWhole) (arg2 : Memref sig .tc .vmem S768x768 .f32) (harg2 : arg2.IsWhole) (arg3 : Memref sig .tc .vmem S768 .f32) (harg3 : arg3.IsWhole) (arg4 : Memref sig .tc .vmem S1024x768 .f32) (harg4 : arg4.IsWhole)
    (x0 : Vec F S1024x768 .bf16) (x1 : Vec F S768x768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.Kernel.Hand

end
-- ==== Proof.K.Oblig.lean ====
/-
  The body obligation of each pipeline: at every grid point the body, handed each window's current staging buffer,
  leaves the inputs' buffers at their blocks and the output's at the body's result on them. An input window's
  buffer holds its block at every point, fetched there or not: where it is not fetched its block index has not moved.
-/
import proofs.«152500_j40810779246812_2_alg».proof.Proof.K.Data
import proofs.«152500_j40810779246812_2_alg».proof.Proof.K.Body0
import proofs.«152500_j40810779246812_2_alg».proof.Proof.K.Body1
import proofs.«152500_j40810779246812_2_alg».proof.Proof.K.Body2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body of region 0 is called with at point `t`: the invariant, the core's dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1 -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body of region 1 is called with at point `t`: the invariant, the core's dues, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Region 2 -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- What the body of region 2 is called with at point `t`: the invariant, the core's dues, each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' staging buffers hold their blocks, so the body's triple applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the whole program: five items in sequence — the host operations before the first region, the three
  regions, the last reshape — each over the thread state "every unscoped buffer of the core at known contents".

  The contents are named step by step: after the first stretch (`VA`), after region 0 the q/k/v buffer holds what
  its write-backs leave (`VB`), after region 1 the attention buffer does (`VC`), after region 2 the projected
  output does (`VD`); nothing else changes, so the four arguments end as launched and the result is the last
  reshape of region 2's output array.
-/
import proofs.«152500_j40810779246812_2_alg».proof.Proof.K.Oblig
import proofs.«152500_j40810779246812_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- After the first host stretch (region 0's entry). -/
abbrev VAW (c : Dev nD) : Valuation τ sig (Elt F) := Gen.V1 m c
abbrev VA : (c : Dev nD) → (b : Ref sig .tc) → Buf (Elt F) ((c : Thread nD τ).loc b) := fun c b => VAW m c b
/-- After region 0: the q/k/v buffer at what the pipeline's write-backs leave. -/
def VBW (c : Dev nD) : Valuation τ sig (Elt F) := Function.update (VAW m c) main_v4 ((dat0 (VA m) c).arrAt 3 cfg0.N)
abbrev VB : (c : Dev nD) → (b : Ref sig .tc) → Buf (Elt F) ((c : Thread nD τ).loc b) := fun c b => VBW m c b
/-- After region 1: the attention buffer at what the write-backs leave. -/
def VCW (c : Dev nD) : Valuation τ sig (Elt F) := Function.update (VBW m c) main_v5 ((dat1 (VB m) c).arrAt 3 cfg1.N)
abbrev VC : (c : Dev nD) → (b : Ref sig .tc) → Buf (Elt F) ((c : Thread nD τ).loc b) := fun c b => VCW m c b
/-- After region 2: the projected output at what the write-backs leave. -/
def VDW (c : Dev nD) : Valuation τ sig (Elt F) := Function.update (VCW m c) main_v6 ((dat2 (VC m) c).arrAt 3 cfg2.N)
abbrev VD : (c : Dev nD) → (b : Ref sig .tc) → Buf (Elt F) ((c : Thread nD τ).loc b) := fun c b => VDW m c b

theorem VBW_self (c : Dev nD) : VBW m c (Proc.devRef .tc main_v4) = (dat0 (VA m) c).arrAt 3 cfg0.N := by
  unfold VBW; exact Function.update_self ..
theorem VBW_of_ne (c : Dev nD) (b : Ref sig .tc) (h : b ≠ main_v4) : VBW m c (Proc.devRef .tc b) = VAW m c (Proc.devRef .tc b) := by
  unfold VBW; exact Function.update_of_ne (StableHlo.devRef_ne_of_ne h) ..
theorem VCW_self (c : Dev nD) : VCW m c (Proc.devRef .tc main_v5) = (dat1 (VB m) c).arrAt 3 cfg1.N := by
  unfold VCW; exact Function.update_self ..
theorem VCW_of_ne (c : Dev nD) (b : Ref sig .tc) (h : b ≠ main_v5) : VCW m c (Proc.devRef .tc b) = VBW m c (Proc.devRef .tc b) := by
  unfold VCW; exact Function.update_of_ne (StableHlo.devRef_ne_of_ne h) ..
theorem VDW_self (c : Dev nD) : VDW m c (Proc.devRef .tc main_v6) = (dat2 (VC m) c).arrAt 3 cfg2.N := by
  unfold VDW; exact Function.update_self ..
theorem VDW_of_ne (c : Dev nD) (b : Ref sig .tc) (h : b ≠ main_v6) : VDW m c (Proc.devRef .tc b) = VCW m c (Proc.devRef .tc b) := by
  unfold VDW; exact Function.update_of_ne (StableHlo.devRef_ne_of_ne h) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
  | ⟨2, _⟩ => fun c => dat2 (VC m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## At a region's exit: its arrays at what the pipeline leaves, every other buffer as entered -/

theorem hF0 (c : Dev nD) (w : Fin cfg0.W) : (dat0 (VA m) c).arrAt w cfg0.N = VB m c (Pipeline.arrRef spec0 w) := by
  match w with
  | ⟨0, _⟩ => exact (((dat0 (VA m) c).arrAt_in 0 rfl _).trans (A_eq0 (VA m) c 0)).trans (VBW_of_ne m c main_v0 (by decide)).symm
  | ⟨1, _⟩ => exact (((dat0 (VA m) c).arrAt_in 1 rfl _).trans (A_eq0 (VA m) c 1)).trans (VBW_of_ne m c main_v1 (by decide)).symm
  | ⟨2, _⟩ => exact (((dat0 (VA m) c).arrAt_in 2 rfl _).trans (A_eq0 (VA m) c 2)).trans (VBW_of_ne m c main_v3 (by decide)).symm
  | ⟨3, _⟩ => exact (VBW_self m c).symm
theorem hrest0 (c : Dev nD) : ∀ b, b ∉ Finset.univ.image (Pipeline.arrRef spec0) → VB m c b = VA m c b :=
  fun b hb => VBW_of_ne m c b fun e => hb (Finset.mem_image.mpr ⟨3, Finset.mem_univ _, e.symm⟩)

theorem hF2 (c : Dev nD) (w : Fin cfg2.W) : (dat2 (VC m) c).arrAt w cfg2.N = VD m c (Pipeline.arrRef spec2 w) := by
  match w with
  | ⟨0, _⟩ => exact (((dat2 (VC m) c).arrAt_in 0 rfl _).trans (A_eq2 (VC m) c 0)).trans (VDW_of_ne m c main_v5 (by decide)).symm
  | ⟨1, _⟩ => exact (((dat2 (VC m) c).arrAt_in 1 rfl _).trans (A_eq2 (VC m) c 1)).trans (VDW_of_ne m c main_v2 (by decide)).symm
  | ⟨2, _⟩ => exact (((dat2 (VC m) c).arrAt_in 2 rfl _).trans (A_eq2 (VC m) c 2)).trans (VDW_of_ne m c main_arg3 (by decide)).symm
  | ⟨3, _⟩ => exact (VDW_self m c).symm
theorem hrest2 (c : Dev nD) : ∀ b, b ∉ Finset.univ.image (Pipeline.arrRef spec2) → VD m c b = VC m c b :=
  fun b hb => VDW_of_ne m c b fun e => hb (Finset.mem_image.mpr ⟨3, Finset.mem_univ _, e.symm⟩)

/-! ## Region 1's arrays: one buffer behind three windows -/

section SharedArray
variable (V : (c : Dev nD) → (b : Ref sig .tc) → Buf (Elt F) ((c : Thread nD τ).loc b))

theorem img1 : Finset.univ.image (Pipeline.arrRef spec1) = ({main_v4, main_v5} : Finset (Ref sig .tc)) := by decide

/-- Region 1's four windowed arrays, spelt out: the q/k/v buffer three times at the three shares its full share is
    dealt into, and the attention buffer whole. -/
theorem arrays1_eq (c : Dev nD) (F4 F5) (Fw : (w : Fin cfg1.W) → Buf (Elt F) ((cfg1.win w).arr.view.loc (c : Thread nD τ)))
    (h0 : Fw 0 = F4) (h1 : Fw 1 = F4) (h2 : Fw 2 = F4) (h3 : Fw 3 = F5) :
    ((dat1 V c).arrays Fw : sProp 𝕄)
      = iprop(((c : Thread nD τ).loc main_v4 ↦{fullShare.left} F4) ∗ ((c : Thread nD τ).loc main_v4 ↦{fullShare.right.left} F4)
          ∗ ((c : Thread nD τ).loc main_v4 ↦{fullShare.right.right} F4) ∗ ((c : Thread nD τ).loc main_v5 ↦{fullShare} F5)) := by
  have s0 : (cfg1.win 0).arr.view.set = Finset.univ := (arr_whole1 0).set_eq_univ
  have s3 : (cfg1.win 3).arr.view.set = Finset.univ := (arr_whole1 3).set_eq_univ
  unfold Dat.arrays
  rw [bigSep_W1, s0, s3, h0, h1, h2, h3]
  rfl

/-- The q/k/v buffer held whole is its three shares. -/
theorem share3 (c : Dev nD) (F4 : Buf (Elt F) ((c : Thread nD τ).loc main_v4)) :
    (((c : Thread nD τ).loc main_v4 ↦{fullShare} F4) : sProp 𝕄)
      ⊣⊢ iprop(((c : Thread nD τ).loc main_v4 ↦{fullShare.left} F4) ∗ ((c : Thread nD τ).loc main_v4 ↦{fullShare.right.left} F4)
          ∗ ((c : Thread nD τ).loc main_v4 ↦{fullShare.right.right} F4)) := by
  constructor
  · iintro H4
    ihave H4 := (pointsTo_share (PosShare.mem_left_op_right fullShare)).1 $$ H4
    icases H4 with ⟨Hl, Hr⟩
    ihave Hr := (pointsTo_share (PosShare.mem_left_op_right fullShare.right)).1 $$ Hr
    icases Hr with ⟨Hrl, Hrr⟩
    isplitl [Hl]; · iexact Hl
    isplitl [Hrl]; · iexact Hrl
    iexact Hrr
  · iintro ⟨Hl, Hrl, Hrr⟩
    ihave Hr := (pointsTo_share (PosShare.mem_left_op_right fullShare.right)).2 $$ [Hrl Hrr]
    · isplitl [Hrl] <;> iassumption
    iapply (pointsTo_share (PosShare.mem_left_op_right fullShare)).2
    isplitl [Hl] <;> iassumption

/-- The two distinct buffers behind region 1's arrays, held whole at contents `W`. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop(((c : Thread nD τ).loc main_v4 ↦{fullShare} W main_v4) ∗ ((c : Thread nD τ).loc main_v5 ↦{fullShare} W main_v5)) := by
  unfold Pipeline.arrBufs
  rw [img1, bigSep_insert (by decide), bigSep_singleton]
  rfl

/-- ENTRY: the buffers behind the arrays, whole at the entry contents, make the proof data's arrays at entry. -/
theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq V c (V c main_v4) (V c main_v5) _ rfl rfl rfl rfl]
  iintro ⟨H4, H5⟩
  ihave H4 := (share3 c _).1 $$ H4
  icases H4 with ⟨Hl, Hrl, Hrr⟩
  isplitl [Hl]; · iexact Hl
  isplitl [Hrl]; · iexact Hrl
  isplitl [Hrr]; · iexact Hrr
  iexact H5

/-- EXIT: the arrays at their final contents — the q/k/v buffer as entered, three times, and the attention buffer at
    what the write-backs leave — are the two buffers whole at any contents `W` that has them so. -/
theorem arrays1_exit (c : Dev nD) (W : (b : Ref sig .tc) → Buf (Elt F) ((c : Thread nD τ).loc b))
    (h4 : W main_v4 = V c main_v4) (h5 : W main_v5 = (dat1 V c).arrAt 3 cfg1.N) :
    ((dat1 V c).arrays ((dat1 V c).arrAt · cfg1.N) : sProp 𝕄) ⊢ Pipeline.arrBufs (Ix := Unit) (Name := ℕ) (U := UR sig nD τ) (Lvl := ℕ) spec1 c W := by
  rw [arrBufs1_eq, h4, h5, arrays1_eq V c (V c main_v4) ((dat1 V c).arrAt 3 cfg1.N) _
    (((dat1 V c).arrAt_in 0 rfl _).trans (A_eq1 V c 0)) (((dat1 V c).arrAt_in 1 rfl _).trans (A_eq1 V c 1))
    (((dat1 V c).arrAt_in 2 rfl _).trans (A_eq1 V c 2)) rfl]
  iintro ⟨Hl, Hrl, Hrr, H5⟩
  isplitl [Hl Hrl Hrr]
  · iapply (share3 c _).2
    isplitl [Hl]; · iexact Hl
    isplitl [Hrl]; · iexact Hrl
    iexact Hrr
  iexact H5

end SharedArray

/-! ## The regions as segments -/

-- a library lemma stated over the pinned configuration unifies with the printed one only when unification may unfold
-- plain definitions in a metavariable's type
set_option backward.isDefEq.respectTransparency.types false in
/-- Region 0 over the thread state: entered with every unscoped buffer at its entry contents, left with the output
    array at what the write-backs leave and every other buffer as entered. Its arrays are split out of the unscoped
    buffers and put back; the generator register goes into the invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (VAW m c) ∗ R c)
  post c := iprop(StableHlo.held (c : Thread nD τ) (Pipeline.ucRefs τ sig) (VBW m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest1 (c : Dev nD) : ∀ b, b ∉ Finset.univ.image (Pipeline.arrRef spec1) → VC m c b = VB m c b :=
  fun b hb => VCW_of_ne m c b fun e => hb (Finset.mem_image.mpr ⟨3, Finset.mem_univ _, e.symm⟩)

set_option backward.isDefEq.respectTransparency.types false in
/-- Region 1 over the thread state. Its three input windows read ONE array: at entry the q/k/v buffer's full share is
    dealt into the three shares the windows hold, at exit the shares are joined again. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (VBW m c) ∗ R c)
  post c := iprop(StableHlo.held (c : Thread nD τ) (Pipeline.ucRefs τ sig) (VCW m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit : (unscopedBufs c (VB m c) : sProp 𝕄)
        ⊢ iprop((pdats m 1 c).arrays ((pdats m 1 c).arrAt · 0) ∗ Pipeline.unscopedRest spec1 c (VB m c)) := by
      rw [Pipeline.unscopedBufs_split₀ cfgs 1 winFacts₀1.arr_unscoped c (VB m c)]
      exact sep_mono (arrays1_entry (VB m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VB m c))
        ⊢ (unscopedBufs c (VC m c) : sProp 𝕄) := by
      rw [Pipeline.unscopedBufs_split₀ cfgs 1 winFacts₀1.arr_unscoped c (VC m c)]
      refine sep_mono (arrays1_exit (VB m) c (VC m c) (VCW_of_ne m c main_v4 (by decide)) (VCW_self m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at its entry contents, left with the output
    array at what the write-backs leave and every other buffer as entered. Its arrays are split out of the unscoped
    buffers and put back; the generator register goes into the invariant and comes out; nothing is owed. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m) c).loose
  hwaits := Pipeline.hwaits_of_owed_zero _ _ _ _ L lv 2 fun _ _ => rfl
  pre c := iprop(StableHlo.held (c : Thread nD τ) (Pipeline.ucRefs τ sig) (VCW m c) ∗ R c)
  post c := iprop(StableHlo.held (c : Thread nD τ) (Pipeline.ucRefs τ sig) (VDW m c) ∗ R c)
  X c := iprop(∃ r, prngReg c r)
  Y c := iprop(∃ r, prngReg c r)
  Z c := Pipeline.unscopedRest (Ix := Unit) (Name := ℕ) (U := UR sig nD τ) (Lvl := ℕ) spec2 c (VC m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VC m c) (VD m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- After the last host stretch: the result array is the reshape of region 2's output. -/
abbrev VEW (c : Dev nD) : Valuation τ sig (Elt F) := StableHlo.after hostOps3 (VDW m c)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's five items in order. -/
abbrev segs : List (Seg (pcfgs (F := F)) adm (pdats m) () defs₀ 𝒱₀ L lv) :=
  [ .host (hseg hostOps0 hostOps0_sub hostOps0_fresh (Gen.V0 m)),
    .region (reg0 m),
    .region (reg1 m),
    .region (reg2 m),
    .host (hseg hostOps3 hostOps3_sub hostOps3_fresh (VDW m)) ]

/-- @main IS the run of the segments. -/
theorem main_run (c : Dev nD) : main (F := F) c = Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An argument's buffer is written by no item: at the end it holds its launch contents. -/
theorem VEW_arg (c : Dev nD) (r : Ref sig .tc) (h3 : r ∉ hostOps3_W) (h6 : r ≠ main_v6) (h5 : r ≠ main_v5) (h4 : r ≠ main_v4) (h0 : r ∉ hostOps0_W) :
    VEW m c (Proc.devRef .tc r) = m ((c : Thread nD τ).loc r) :=
  (StableHlo.after_of_writes_sub hostOps3 _ hostOps3_writes h3).trans <| (VDW_of_ne m c r h6).trans <| (VCW_of_ne m c r h5).trans <|
    (VBW_of_ne m c r h4).trans <| (Gen.V1_of m c r h0).trans rfl

-- the launch theorem's implicit arguments are found by unifying its conclusion with this one, which takes unfolding
-- plain definitions in a metavariable's type
set_option backward.isDefEq.respectTransparency.types false in
/-- THE RUN, at any `F`: from any memory with zero counters every weakly fair execution of @main terminates, nothing
    faulting; at the end the result buffer holds the last reshape of region 2's output array and the four argument
    buffers hold what they were launched with. -/
theorem run_main (ρ : Dev nD → PrngReg) : θ_run defs (onTc (τ := τ) (main (F := F))) ⟨m, fun _ => 0, ρ⟩ (fun r => ∀ c : Dev nD,
      r.2.mem ((c.tc : Thread nD τ).loc main_v7) = VEW m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (VEW m c) ∗ ∃ r, prngReg c r))
    (hch := ⟨fun _ => .rfl, fun _ => .rfl, fun _ => .rfl, fun _ => .rfl, fun _ => .rfl, fun c => (show iprop(StableHlo.held (c : Thread nD τ) (Pipeline.ucRefs τ sig) (VEW m c) ∗ R c) ⊢ _ from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = VEW m c b)
    (hfin := fun c s' => by
      iintro ⟨⟨Hh, -⟩, HSI⟩
      unfold StableHlo.held
      imodintro
      iapply (pointsTo_read_all (Pipeline.ucRefs τ sig) (fun b => (((c : Thread nD τ)).1, b)) (VEW m c) s')
      isplitl [Hh] <;> iassumption)
    (hQ := fun s h c =>
      ⟨h c _ (mem_uc main_v7 (by decide)),
       (h c _ (mem_uc main_arg0 (by decide))).trans (VEW_arg m c main_arg0 (by decide) (by decide) (by decide) (by decide) (by decide)),
       (h c _ (mem_uc main_arg1 (by decide))).trans (VEW_arg m c main_arg1 (by decide) (by decide) (by decide) (by decide) (by decide)),
       (h c _ (mem_uc main_arg2 (by decide))).trans (VEW_arg m c main_arg2 (by decide) (by decide) (by decide) (by decide) (by decide)),
       (h c _ (mem_uc main_arg3 (by decide))).trans (VEW_arg m c main_arg3 (by decide) (by decide) (by decide) (by decide) (by decide))⟩)

end Cert.Kernel.Hand

end
-- ==== Proof.KI.Outs.lean ====
/-
  What each kernel body leaves in its output block, as a function of the input blocks it is called on.

  Region 0 (the fused q/k/v projection): one store of the whole [512, 2304] block, the product of the
  [512, 768] row block of x with the whole transposed weight, plus the (zero) bias row.
  Region 1 (attention, two heads per point): the left 64 columns of the [1024, 128] output block are head
  one's softmax(q kᵀ / 8) v computed from the left halves of the q, k, v blocks; the right 64 columns are
  head two's, from the right halves.
  Region 2 (the output projection): one store of the whole [1024, 768] block.
-/
import proofs.«152500_j40810779246812_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The rectangles the bodies access -/

abbrev r0_0 : Rect S512x768 := Rect.unit (s := S512x768) ![0, 0] S512x768.size inb_S512x768_S512x768_0_0
abbrev r0_1 : Rect S768x2304 := Rect.unit (s := S768x2304) ![0, 0] S768x2304.size inb_S768x2304_S768x2304_0_0
abbrev r0_2 : Rect S2304 := Rect.unit (s := S2304) ![0] S2304.size inb_S2304_S2304_0
abbrev r0_3 : Rect S512x2304 := Rect.unit (s := S512x2304) ![0, 0] S512x2304.size inb_S512x2304_S512x2304_0_0

/-- The left 64 columns of a [1024, 128] block. -/
abbrev r1_L : Rect S1024x128 := Rect.unit (s := S1024x128) ![0, 0] S1024x64.size inb_S1024x128_S1024x64_0_0
/-- The right 64 columns of a [1024, 128] block. -/
abbrev r1_R : Rect S1024x128 := Rect.unit (s := S1024x128) ![0, 64] S1024x64.size inb_S1024x128_S1024x64_0_64

abbrev r2_0 : Rect S1024x768 := Rect.unit (s := S1024x768) ![0, 0] S1024x768.size inb_S1024x768_S1024x768_0_0
abbrev r2_1 : Rect S768x768 := Rect.unit (s := S768x768) ![0, 0] S768x768.size inb_S768x768_S768x768_0_0
abbrev r2_2 : Rect S768 := Rect.unit (s := S768) ![0] S768.size inb_S768_S768_0

/-! ## The output blocks after the body -/

/-- Region 0's output block: its one store. -/
def out0_3 (x0 : Vec F S512x768 .f32) (x1 : Vec F S768x2304 .f32) (x2 : Vec F S2304 .f32) : Vec F S512x2304 .bf16 :=
  View.canon [⟨r0_3, k0_pay1 (View.ld x0 r0_0) (View.ld x1 r0_1) (View.ld x2 r0_2)⟩]

/-- Region 1's output block: the right half's store (the later one) first, then the left half's. -/
def out1_3 (x0 x1 x2 : Vec F S1024x128 .bf16) : Vec F S1024x128 .bf16 :=
  View.canon [⟨r1_R, k1_pay1 (k1_pay3 (View.ld x2 r1_R)) (k1_pay4 (View.ld x0 r1_R) (View.ld x1 r1_R)) (k1_pay5 (View.ld x0 r1_R) (View.ld x1 r1_R))⟩,
    ⟨r1_L, k1_pay2 (View.ld x0 r1_L) (View.ld x1 r1_L) (View.ld x2 r1_L)⟩]

/-- Region 2's output block: its one store. -/
def out2_3 (x0 : Vec F S1024x768 .bf16) (x1 : Vec F S768x768 .f32) (x2 : Vec F S768 .f32) : Vec F S1024x768 .f32 :=
  View.canon [⟨r2_0, k2_pay1 (View.ld x0 r2_0) (View.ld x1 r2_1) (View.ld x2 r2_2)⟩]

/-! ## The stores cover the blocks -/

theorem cover0_3 (p0 : Vec F S512x2304 .bf16) (y : S512x2304.Idx) :
    ∃ pc ∈ ([⟨r0_3, p0⟩] : List (View.Piece (Elt F) S512x2304 .bf16)), y ∈ pc.1.set :=
  View.cover_of_tiled [⟨r0_3, p0⟩] S512x2304.size (by rfl) y

theorem cover1_3 (p0 p1 : Vec F S1024x64 .bf16) (y : S1024x128.Idx) :
    ∃ pc ∈ ([⟨r1_R, p0⟩, ⟨r1_L, p1⟩] : List (View.Piece (Elt F) S1024x128 .bf16)), y ∈ pc.1.set :=
  View.cover_of_tiled [⟨r1_R, p0⟩, ⟨r1_L, p1⟩] S1024x64.size (by rfl) y

theorem cover2_3 (p0 : Vec F S1024x768 .f32) (y : S1024x768.Idx) :
    ∃ pc ∈ ([⟨r2_0, p0⟩] : List (View.Piece (Elt F) S1024x768 .f32)), y ∈ pc.1.set :=
  View.cover_of_tiled [⟨r2_0, p0⟩] S1024x768.size (by rfl) y

end Cert.KernelIdeal.Hand

end
-- ==== Proof.KI.Data.lean ====
/-
  The proof data of the three pipelines, each at a parameter `V`: the contents of the core's buffers when its region
  is entered. A window's block at a grid point is read off its array under `V`; after the body an input's staging
  buffer still holds its block and the output's holds the body's result on the input blocks.

  In region 1 the three input windows read ONE array (the fused q/k/v buffer) at three column offsets, so the array's
  full share is dealt among them: the left half to the q window, and the two halves of the right half to the k and
  v windows.
-/
import proofs.«152500_j40810779246812_2_alg».proof.Proof.KI.Outs
import proofs.«152500_j40810779246812_2_alg».proof.Proof.Gen.KernelIdeal.Launch
import proofs.«152500_j40810779246812_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! ## The windows' blocks -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The same for region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The proof data -/

/-- Region 0: every array held whole; the output block is the projection of the row block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- Region 1: the q, k and v windows hold disjoint shares of the one array they read. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

/-- Region 2: every array held whole; the output block is the projection of the row block plus the bias row. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-! ## The data projected -/

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.Hand

end
-- ==== Proof.KI.Body0.lean ====
/-
  The triple of region 0's body (the fused q/k/v projection) on whole staging memrefs.

  The body loads its three input blocks whole, loads the output block (a value it never uses), and stores
  the product-plus-bias over the whole output block. So from the inputs held at contents x0, x1, x2 and the
  output at anything, it ends with the inputs unchanged and the output block at its one store's value,
  which is the block out0_3 x0 x1 x2: one piece covering the block.
-/
import proofs.«152500_j40810779246812_2_alg».proof.Proof.KI.Outs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Region 0's body, run on whole memrefs: inputs kept, the output block at `out0_3` of the inputs. -/
theorem sound_kernel0 (c : Dev nD) (E : Set ℕ) (i : grid0.Coords) (arg1 : Memref sig .tc .vmem S512x768 .f32) (harg1 : arg1.IsWhole) (arg2 : Memref sig .tc .vmem S768x2304 .f32) (harg2 : arg2.IsWhole) (arg3 : Memref sig .tc .vmem S2304 .f32) (harg3 : arg3.IsWhole) (arg4 : Memref sig .tc .vmem S512x2304 .bf16) (harg4 : arg4.IsWhole)
    (x0 : Vec F S512x768 .f32) (x1 : Vec F S768x2304 .f32) (x2 : Vec F S2304 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Hand

end
-- ==== Proof.KI.Body1.lean ====
/-
  The triple of region 1's body (attention, two heads per point) on whole staging memrefs.

  The body works on the two 64-column halves of its [1024, 128] blocks in turn. For the left half it loads
  the left halves of q, k and v, loads the left half of the output block (a value it never uses) and stores
  head one's softmax(q kᵀ / 8) v there; for the right half it loads the right halves, loads the right half
  of the output block (again unused) and stores head two's result there. So from the inputs held at contents
  x0, x1, x2 and the output at anything, it ends with the inputs unchanged and the output block at its two
  stores, the later one (the right half) first: the block out1_3 x0 x1 x2. The two halves tile the block.
-/
import proofs.«152500_j40810779246812_2_alg».proof.Proof.KI.Outs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Region 1's body, run on whole memrefs: inputs kept, the output block at `out1_3` of the inputs. -/
theorem sound_kernel1 (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole)
    (x0 x1 x2 : Vec F S1024x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _)

end Cert.KernelIdeal.Hand

end
-- ==== Proof.KI.Body2.lean ====
/-
  The triple of region 2's body (the output projection) on whole staging memrefs.

  The body loads its three input blocks whole, loads the output block (a value it never uses), and stores
  the product-plus-bias over the whole output block. So from the inputs held at contents x0, x1, x2 and the
  output at anything, it ends with the inputs unchanged and the output block at its one store's value,
  which is the block out2_3 x0 x1 x2: one piece covering the block.
-/
import proofs.«152500_j40810779246812_2_alg».proof.Proof.KI.Outs
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Region 2's body, run on whole memrefs: inputs kept, the output block at `out2_3` of the inputs. -/
theorem sound_kernel2 (c : Dev nD) (E : Set ℕ) (i : grid2.Coords) (arg1 : Memref sig .tc .vmem S1024x768 .bf16) (harg1 : arg1.IsWhole) (arg2 : Memref sig .tc .vmem S768x768 .f32) (harg2 : arg2.IsWhole) (arg3 : Memref sig .tc .vmem S768 .f32) (harg3 : arg3.IsWhole) (arg4 : Memref sig .tc .vmem S1024x768 .f32) (harg4 : arg4.IsWhole)
    (x0 : Vec F S1024x768 .bf16) (x1 : Vec F S768x768 .f32) (x2 : Vec F S768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

end Cert.KernelIdeal.Hand

end
-- ==== Proof.KI.Oblig.lean ====
/-
  The body obligation of each pipeline: at every grid point the body, handed each window's current staging buffer,
  leaves the inputs' buffers at their blocks and the output's at the body's result on them. An input window's
  buffer holds its block at every point, fetched there or not: where it is not fetched its block index has not moved.
-/
import proofs.«152500_j40810779246812_2_alg».proof.Proof.KI.Data
import proofs.«152500_j40810779246812_2_alg».proof.Proof.KI.Body0
import proofs.«152500_j40810779246812_2_alg».proof.Proof.KI.Body1
import proofs.«152500_j40810779246812_2_alg».proof.Proof.KI.Body2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- What the body of region 0 is called with at point `t`: the invariant, the core's dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' staging buffers hold their blocks, so the body's triple applies; the invariant
    and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1 -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- What the body of region 1 is called with at point `t`: the invariant, the core's dues, each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' staging buffers hold their blocks, so the body's triple applies; the invariant
    and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Region 2 -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- What the body of region 2 is called with at point `t`: the invariant, the core's dues, each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' staging buffers hold their blocks, so the body's triple applies; the invariant
    and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the whole program: five items in sequence — the host operations before the first region, the three
  regions, the last reshape — each over the thread state "every unscoped buffer of the core at known contents".

  The contents are named step by step: after the first stretch (`VA`), after region 0 the q/k/v buffer holds what
  its write-backs leave (`VB`), after region 1 the attention buffer does (`VC`), after region 2 the projected
  output does (`VD`); nothing else changes, so the four arguments end as launched and the result is the last
  reshape of region 2's output array.
-/
import proofs.«152500_j40810779246812_2_alg».proof.Proof.KI.Oblig
import proofs.«152500_j40810779246812_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- After the first host stretch (region 0's entry). -/
abbrev VAW (c : Dev nD) : Valuation τ sig (Elt F) := Gen.V1 m c
abbrev VA : (c : Dev nD) → (b : Ref sig .tc) → Buf (Elt F) ((c : Thread nD τ).loc b) := fun c b => VAW m c b
/-- After region 0: the q/k/v buffer at what the pipeline's write-backs leave. -/
def VBW (c : Dev nD) : Valuation τ sig (Elt F) := Function.update (VAW m c) main_v4 ((dat0 (VA m) c).arrAt 3 cfg0.N)
abbrev VB : (c : Dev nD) → (b : Ref sig .tc) → Buf (Elt F) ((c : Thread nD τ).loc b) := fun c b => VBW m c b
/-- After region 1: the attention buffer at what the write-backs leave. -/
def VCW (c : Dev nD) : Valuation τ sig (Elt F) := Function.update (VBW m c) main_v5 ((dat1 (VB m) c).arrAt 3 cfg1.N)
abbrev VC : (c : Dev nD) → (b : Ref sig .tc) → Buf (Elt F) ((c : Thread nD τ).loc b) := fun c b => VCW m c b
/-- After region 2: the projected output at what the write-backs leave. -/
def VDW (c : Dev nD) : Valuation τ sig (Elt F) := Function.update (VCW m c) main_v6 ((dat2 (VC m) c).arrAt 3 cfg2.N)
abbrev VD : (c : Dev nD) → (b : Ref sig .tc) → Buf (Elt F) ((c : Thread nD τ).loc b) := fun c b => VDW m c b

theorem VBW_self (c : Dev nD) : VBW m c (Proc.devRef .tc main_v4) = (dat0 (VA m) c).arrAt 3 cfg0.N := by
  unfold VBW; exact Function.update_self ..
theorem VBW_of_ne (c : Dev nD) (b : Ref sig .tc) (h : b ≠ main_v4) : VBW m c (Proc.devRef .tc b) = VAW m c (Proc.devRef .tc b) := by
  unfold VBW; exact Function.update_of_ne (StableHlo.devRef_ne_of_ne h) ..
theorem VCW_self (c : Dev nD) : VCW m c (Proc.devRef .tc main_v5) = (dat1 (VB m) c).arrAt 3 cfg1.N := by
  unfold VCW; exact Function.update_self ..
theorem VCW_of_ne (c : Dev nD) (b : Ref sig .tc) (h : b ≠ main_v5) : VCW m c (Proc.devRef .tc b) = VBW m c (Proc.devRef .tc b) := by
  unfold VCW; exact Function.update_of_ne (StableHlo.devRef_ne_of_ne h) ..
theorem VDW_self (c : Dev nD) : VDW m c (Proc.devRef .tc main_v6) = (dat2 (VC m) c).arrAt 3 cfg2.N := by
  unfold VDW; exact Function.update_self ..
theorem VDW_of_ne (c : Dev nD) (b : Ref sig .tc) (h : b ≠ main_v6) : VDW m c (Proc.devRef .tc b) = VCW m c (Proc.devRef .tc b) := by
  unfold VDW; exact Function.update_of_ne (StableHlo.devRef_ne_of_ne h) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
  | ⟨2, _⟩ => fun c => dat2 (VC m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## At a region's exit: its arrays at what the pipeline leaves, every other buffer as entered -/

theorem hF0 (c : Dev nD) (w : Fin cfg0.W) : (dat0 (VA m) c).arrAt w cfg0.N = VB m c (Pipeline.arrRef spec0 w) := by
  match w with
  | ⟨0, _⟩ => exact (((dat0 (VA m) c).arrAt_in 0 rfl _).trans (A_eq0 (VA m) c 0)).trans (VBW_of_ne m c main_v0 (by decide)).symm
  | ⟨1, _⟩ => exact (((dat0 (VA m) c).arrAt_in 1 rfl _).trans (A_eq0 (VA m) c 1)).trans (VBW_of_ne m c main_v1 (by decide)).symm
  | ⟨2, _⟩ => exact (((dat0 (VA m) c).arrAt_in 2 rfl _).trans (A_eq0 (VA m) c 2)).trans (VBW_of_ne m c main_v3 (by decide)).symm
  | ⟨3, _⟩ => exact (VBW_self m c).symm
theorem hrest0 (c : Dev nD) : ∀ b, b ∉ Finset.univ.image (Pipeline.arrRef spec0) → VB m c b = VA m c b :=
  fun b hb => VBW_of_ne m c b fun e => hb (Finset.mem_image.mpr ⟨3, Finset.mem_univ _, e.symm⟩)

theorem hF2 (c : Dev nD) (w : Fin cfg2.W) : (dat2 (VC m) c).arrAt w cfg2.N = VD m c (Pipeline.arrRef spec2 w) := by
  match w with
  | ⟨0, _⟩ => exact (((dat2 (VC m) c).arrAt_in 0 rfl _).trans (A_eq2 (VC m) c 0)).trans (VDW_of_ne m c main_v5 (by decide)).symm
  | ⟨1, _⟩ => exact (((dat2 (VC m) c).arrAt_in 1 rfl _).trans (A_eq2 (VC m) c 1)).trans (VDW_of_ne m c main_v2 (by decide)).symm
  | ⟨2, _⟩ => exact (((dat2 (VC m) c).arrAt_in 2 rfl _).trans (A_eq2 (VC m) c 2)).trans (VDW_of_ne m c main_arg3 (by decide)).symm
  | ⟨3, _⟩ => exact (VDW_self m c).symm
theorem hrest2 (c : Dev nD) : ∀ b, b ∉ Finset.univ.image (Pipeline.arrRef spec2) → VD m c b = VC m c b :=
  fun b hb => VDW_of_ne m c b fun e => hb (Finset.mem_image.mpr ⟨3, Finset.mem_univ _, e.symm⟩)

/-! ## Region 1's arrays: one buffer behind three windows -/

section SharedArray
variable (V : (c : Dev nD) → (b : Ref sig .tc) → Buf (Elt F) ((c : Thread nD τ).loc b))

theorem img1 : Finset.univ.image (Pipeline.arrRef spec1) = ({main_v4, main_v5} : Finset (Ref sig .tc)) := by decide

/-- Region 1's four windowed arrays, spelt out: the q/k/v buffer three times at the three shares its full share is
    dealt into, and the attention buffer whole. -/
theorem arrays1_eq (c : Dev nD) (F4 F5) (Fw : (w : Fin cfg1.W) → Buf (Elt F) ((cfg1.win w).arr.view.loc (c : Thread nD τ)))
    (h0 : Fw 0 = F4) (h1 : Fw 1 = F4) (h2 : Fw 2 = F4) (h3 : Fw 3 = F5) :
    ((dat1 V c).arrays Fw : sProp 𝕄)
      = iprop(((c : Thread nD τ).loc main_v4 ↦{fullShare.left} F4) ∗ ((c : Thread nD τ).loc main_v4 ↦{fullShare.right.left} F4)
          ∗ ((c : Thread nD τ).loc main_v4 ↦{fullShare.right.right} F4) ∗ ((c : Thread nD τ).loc main_v5 ↦{fullShare} F5)) := by
  have s0 : (cfg1.win 0).arr.view.set = Finset.univ := (arr_whole1 0).set_eq_univ
  have s3 : (cfg1.win 3).arr.view.set = Finset.univ := (arr_whole1 3).set_eq_univ
  unfold Dat.arrays
  rw [bigSep_W1, s0, s3, h0, h1, h2, h3]
  rfl

/-- The q/k/v buffer held whole is its three shares. -/
theorem share3 (c : Dev nD) (F4 : Buf (Elt F) ((c : Thread nD τ).loc main_v4)) :
    (((c : Thread nD τ).loc main_v4 ↦{fullShare} F4) : sProp 𝕄)
      ⊣⊢ iprop(((c : Thread nD τ).loc main_v4 ↦{fullShare.left} F4) ∗ ((c : Thread nD τ).loc main_v4 ↦{fullShare.right.left} F4)
          ∗ ((c : Thread nD τ).loc main_v4 ↦{fullShare.right.right} F4)) := by
  constructor
  · iintro H4
    ihave H4 := (pointsTo_share (PosShare.mem_left_op_right fullShare)).1 $$ H4
    icases H4 with ⟨Hl, Hr⟩
    ihave Hr := (pointsTo_share (PosShare.mem_left_op_right fullShare.right)).1 $$ Hr
    icases Hr with ⟨Hrl, Hrr⟩
    isplitl [Hl]; · iexact Hl
    isplitl [Hrl]; · iexact Hrl
    iexact Hrr
  · iintro ⟨Hl, Hrl, Hrr⟩
    ihave Hr := (pointsTo_share (PosShare.mem_left_op_right fullShare.right)).2 $$ [Hrl Hrr]
    · isplitl [Hrl] <;> iassumption
    iapply (pointsTo_share (PosShare.mem_left_op_right fullShare)).2
    isplitl [Hl] <;> iassumption

/-- The two distinct buffers behind region 1's arrays, held whole at contents `W`. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop(((c : Thread nD τ).loc main_v4 ↦{fullShare} W main_v4) ∗ ((c : Thread nD τ).loc main_v5 ↦{fullShare} W main_v5)) := by
  unfold Pipeline.arrBufs
  rw [img1, bigSep_insert (by decide), bigSep_singleton]
  rfl

/-- ENTRY: the buffers behind the arrays, whole at the entry contents, make the proof data's arrays at entry. -/
theorem arrays1_entry (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq V c (V c main_v4) (V c main_v5) _ rfl rfl rfl rfl]
  iintro ⟨H4, H5⟩
  ihave H4 := (share3 c _).1 $$ H4
  icases H4 with ⟨Hl, Hrl, Hrr⟩
  isplitl [Hl]; · iexact Hl
  isplitl [Hrl]; · iexact Hrl
  isplitl [Hrr]; · iexact Hrr
  iexact H5

/-- EXIT: the arrays at their final contents — the q/k/v buffer as entered, three times, and the attention buffer at
    what the write-backs leave — are the two buffers whole at any contents `W` that has them so. -/
theorem arrays1_exit (c : Dev nD) (W : (b : Ref sig .tc) → Buf (Elt F) ((c : Thread nD τ).loc b))
    (h4 : W main_v4 = V c main_v4) (h5 : W main_v5 = (dat1 V c).arrAt 3 cfg1.N) :
    ((dat1 V c).arrays ((dat1 V c).arrAt · cfg1.N) : sProp 𝕄) ⊢ Pipeline.arrBufs (Ix := Unit) (Name := ℕ) (U := UR sig nD τ) (Lvl := ℕ) spec1 c W := by
  rw [arrBufs1_eq, h4, h5, arrays1_eq V c (V c main_v4) ((dat1 V c).arrAt 3 cfg1.N) _
    (((dat1 V c).arrAt_in 0 rfl _).trans (A_eq1 V c 0)) (((dat1 V c).arrAt_in 1 rfl _).trans (A_eq1 V c 1))
    (((dat1 V c).arrAt_in 2 rfl _).trans (A_eq1 V c 2)) rfl]
  iintro ⟨Hl, Hrl, Hrr, H5⟩
  isplitl [Hl Hrl Hrr]
  · iapply (share3 c _).2
    isplitl [Hl]; · iexact Hl
    isplitl [Hrl]; · iexact Hrl
    iexact Hrr
  iexact H5

end SharedArray

/-! ## The regions as segments -/

-- a library lemma stated over the pinned configuration unifies with the printed one only when unification may unfold
-- plain definitions in a metavariable's type
set_option backward.isDefEq.respectTransparency.types false in
/-- Region 0 over the thread state: entered with every unscoped buffer at its entry contents, left with the output
    array at what the write-backs leave and every other buffer as entered. Its arrays are split out of the unscoped
    buffers and put back; the generator register goes into the invariant and comes out; nothing is owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (VAW m c) ∗ R c)
  post c := iprop(StableHlo.held (c : Thread nD τ) (Pipeline.ucRefs τ sig) (VBW m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest1 (c : Dev nD) : ∀ b, b ∉ Finset.univ.image (Pipeline.arrRef spec1) → VC m c b = VB m c b :=
  fun b hb => VCW_of_ne m c b fun e => hb (Finset.mem_image.mpr ⟨3, Finset.mem_univ _, e.symm⟩)

set_option backward.isDefEq.respectTransparency.types false in
/-- Region 1 over the thread state. Its three input windows read ONE array: at entry the q/k/v buffer's full share is
    dealt into the three shares the windows hold, at exit the shares are joined again. -/
def reg1 : RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (VBW m c) ∗ R c)
  post c := iprop(StableHlo.held (c : Thread nD τ) (Pipeline.ucRefs τ sig) (VCW m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit : (unscopedBufs c (VB m c) : sProp 𝕄)
        ⊢ iprop((pdats m 1 c).arrays ((pdats m 1 c).arrAt · 0) ∗ Pipeline.unscopedRest spec1 c (VB m c)) := by
      rw [Pipeline.unscopedBufs_split₀ cfgs 1 winFacts₀1.arr_unscoped c (VB m c)]
      exact sep_mono (arrays1_entry (VB m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VB m c))
        ⊢ (unscopedBufs c (VC m c) : sProp 𝕄) := by
      rw [Pipeline.unscopedBufs_split₀ cfgs 1 winFacts₀1.arr_unscoped c (VC m c)]
      refine sep_mono (arrays1_exit (VB m) c (VC m c) (VCW_of_ne m c main_v4 (by decide)) (VCW_self m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at its entry contents, left with the output
    array at what the write-backs leave and every other buffer as entered. Its arrays are split out of the unscoped
    buffers and put back; the generator register goes into the invariant and comes out; nothing is owed. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m) c).loose
  hwaits := Pipeline.hwaits_of_owed_zero _ _ _ _ L lv 2 fun _ _ => rfl
  pre c := iprop(StableHlo.held (c : Thread nD τ) (Pipeline.ucRefs τ sig) (VCW m c) ∗ R c)
  post c := iprop(StableHlo.held (c : Thread nD τ) (Pipeline.ucRefs τ sig) (VDW m c) ∗ R c)
  X c := iprop(∃ r, prngReg c r)
  Y c := iprop(∃ r, prngReg c r)
  Z c := Pipeline.unscopedRest (Ix := Unit) (Name := ℕ) (U := UR sig nD τ) (Lvl := ℕ) spec2 c (VC m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VC m c) (VD m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- After the last host stretch: the result array is the reshape of region 2's output. -/
abbrev VEW (c : Dev nD) : Valuation τ sig (Elt F) := StableHlo.after hostOps3 (VDW m c)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's five items in order. -/
abbrev segs : List (Seg (pcfgs (F := F)) adm (pdats m) () defs₀ 𝒱₀ L lv) :=
  [ .host (hseg hostOps0 hostOps0_sub hostOps0_fresh (Gen.V0 m)),
    .region (reg0 m),
    .region (reg1 m),
    .region (reg2 m),
    .host (hseg hostOps3 hostOps3_sub hostOps3_fresh (VDW m)) ]

/-- @main IS the run of the segments. -/
theorem main_run (c : Dev nD) : main (F := F) c = Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- An argument's buffer is written by no item: at the end it holds its launch contents. -/
theorem VEW_arg (c : Dev nD) (r : Ref sig .tc) (h3 : r ∉ hostOps3_W) (h6 : r ≠ main_v6) (h5 : r ≠ main_v5) (h4 : r ≠ main_v4) (h0 : r ∉ hostOps0_W) :
    VEW m c (Proc.devRef .tc r) = m ((c : Thread nD τ).loc r) :=
  (StableHlo.after_of_writes_sub hostOps3 _ hostOps3_writes h3).trans <| (VDW_of_ne m c r h6).trans <| (VCW_of_ne m c r h5).trans <|
    (VBW_of_ne m c r h4).trans <| (Gen.V1_of m c r h0).trans rfl

-- the launch theorem's implicit arguments are found by unifying its conclusion with this one, which takes unfolding
-- plain definitions in a metavariable's type
set_option backward.isDefEq.respectTransparency.types false in
/-- THE RUN, at any `F`: from any memory with zero counters every weakly fair execution of @main terminates, nothing
    faulting; at the end the result buffer holds the last reshape of region 2's output array and the four argument
    buffers hold what they were launched with. -/
theorem run_main (ρ : Dev nD → PrngReg) : θ_run defs (onTc (τ := τ) (main (F := F))) ⟨m, fun _ => 0, ρ⟩ (fun r => ∀ c : Dev nD,
      r.2.mem ((c.tc : Thread nD τ).loc main_v7) = VEW m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (VEW m c) ∗ ∃ r, prngReg c r))
    (hch := ⟨fun _ => .rfl, fun _ => .rfl, fun _ => .rfl, fun _ => .rfl, fun _ => .rfl, fun c => (show iprop(StableHlo.held (c : Thread nD τ) (Pipeline.ucRefs τ sig) (VEW m c) ∗ R c) ⊢ _ from by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = VEW m c b)
    (hfin := fun c s' => by
      iintro ⟨⟨Hh, -⟩, HSI⟩
      unfold StableHlo.held
      imodintro
      iapply (pointsTo_read_all (Pipeline.ucRefs τ sig) (fun b => (((c : Thread nD τ)).1, b)) (VEW m c) s')
      isplitl [Hh] <;> iassumption)
    (hQ := fun s h c =>
      ⟨h c _ (mem_uc main_v7 (by decide)),
       (h c _ (mem_uc main_arg0 (by decide))).trans (VEW_arg m c main_arg0 (by decide) (by decide) (by decide) (by decide) (by decide)),
       (h c _ (mem_uc main_arg1 (by decide))).trans (VEW_arg m c main_arg1 (by decide) (by decide) (by decide) (by decide) (by decide)),
       (h c _ (mem_uc main_arg2 (by decide))).trans (VEW_arg m c main_arg2 (by decide) (by decide) (by decide) (by decide) (by decide)),
       (h c _ (mem_uc main_arg3 (by decide))).trans (VEW_arg m c main_arg3 (by decide) (by decide) (by decide) (by decide) (by decide))⟩)

end Cert.KernelIdeal.Hand

end
-- ==== Proof.Spec.lean ====
/-
  The function both programs compute, over extended reals and `Fin` coordinates: multi-head
  self-attention with 12 heads of 64 features on 8 sequences of 1024 tokens of width 768.

  `qkv`   the fused projection  x · Wqᵀ  (2304 = 3 · 12 · 64 columns: part, head, feature);
  for ANY array `Q` of that shape (sequence, token, column):
  `score` the scaled products of a head's queries and keys;
  `rowmax`, `p`, `rowsum`, `attn`  the softmax over the keys, as it is computed: the maximum of a row
          (a fold of `max` from `⊥`), the exponential of the difference, the row's sum, the quotient;
  `ctx`   the attention-weighted sum of the head's values;
  `projOut` a projection  O · Woᵀ + B ;
  `out`   the output projection of the heads laid side by side (column c = h · 64 + d).
-/
import Idealize.ShloMosaic.PureOps.Ideal
import Idealize.ShloMosaic.PureOps.Ideal.Laws
import Idealize.ShloMosaic.Lib.ValueIdx

noncomputable section

namespace Cert.Spec

open Idealize.ShloMosaic
open scoped BigOperators

/-- The scale `64^(-1/2) = 1/8`, as the value the `f32` pattern `0x3E000000` denotes. -/
def eighth : EReal := Ideal.ofBits .f32 0x3E000000#32

/-- Column `s · 768 + h · 64 + d` of the fused projection: part `s` (0 query, 1 key, 2 value), head `h`, feature `d`. -/
def col (s : Fin 3) (h : Fin 12) (d : Fin 64) : Fin 2304 :=
  ⟨s.val * 768 + h.val * 64 + d.val, by have := s.isLt; have := h.isLt; have := d.isLt; omega⟩

theorem col_val (s : Fin 3) (h : Fin 12) (d : Fin 64) : (col s h d).val = s.val * 768 + h.val * 64 + d.val := rfl

/-- The fused projection: token `n` of sequence `b` against row `j` of `Wq`. -/
def qkv (X : Fin 8 → Fin 1024 → Fin 768 → EReal) (Wq : Fin 2304 → Fin 768 → EReal)
    (b : Fin 8) (n : Fin 1024) (j : Fin 2304) : EReal := ∑ c : Fin 768, X b n c * Wq j c

section Attention

variable (Q : Fin 8 → Fin 1024 → Fin 2304 → EReal)

/-- Head `h`: query `q` against key `k`, scaled. -/
def score (b : Fin 8) (h : Fin 12) (q k : Fin 1024) : EReal :=
  (∑ d : Fin 64, Q b q (col 0 h d) * Q b k (col 1 h d)) * eighth

/-- The greatest score of a query's row: the fold of `max` over the keys from `⊥`. -/
def rowmax (b : Fin 8) (h : Fin 12) (q : Fin 1024) : EReal :=
  (Finset.univ : Finset (Fin 1024)).fold max ⊥ (fun k => score Q b h q k)

/-- The exponential of a score less its row's maximum. -/
def p (b : Fin 8) (h : Fin 12) (q k : Fin 1024) : EReal :=
  Ideal.exp (score Q b h q k - rowmax Q b h q)

/-- The sum of a row's exponentials. -/
def rowsum (b : Fin 8) (h : Fin 12) (q : Fin 1024) : EReal := ∑ k : Fin 1024, p Q b h q k

/-- The softmax weight of key `k` for query `q`. -/
def attn (b : Fin 8) (h : Fin 12) (q k : Fin 1024) : EReal :=
  Ideal.div (p Q b h q k) (rowsum Q b h q)

/-- Head `h`'s output for query `q`, feature `d`: the weighted sum of the values. -/
def ctx (b : Fin 8) (h : Fin 12) (q : Fin 1024) (d : Fin 64) : EReal :=
  ∑ k : Fin 1024, attn Q b h q k * Q b k (col 2 h d)

/-- The heads' outputs laid side by side: column `c = h · 64 + d`. -/
def heads (b : Fin 8) (n : Fin 1024) (c : Fin 768) : EReal :=
  ctx Q b ⟨c.val / 64, by have := c.isLt; omega⟩ n ⟨c.val % 64, by omega⟩

end Attention

/-- A projection with bias: `O · Woᵀ + B`. -/
def projOut (O : Fin 8 → Fin 1024 → Fin 768 → EReal) (Wo : Fin 768 → Fin 768 → EReal) (B : Fin 768 → EReal)
    (b : Fin 8) (n : Fin 1024) (j : Fin 768) : EReal := (∑ c : Fin 768, O b n c * Wo j c) + B j

/-- The whole function: the output projection of the heads of the fused projection, plus the bias. -/
def out (X : Fin 8 → Fin 1024 → Fin 768 → EReal) (Wq : Fin 2304 → Fin 768 → EReal)
    (Wo : Fin 768 → Fin 768 → EReal) (B : Fin 768 → EReal) (b : Fin 8) (n : Fin 1024) (j : Fin 768) : EReal :=
  (∑ c : Fin 768, ctx (qkv X Wq) b ⟨c.val / 64, by have := c.isLt; omega⟩ n ⟨c.val % 64, by omega⟩ * Wo j c) + B j

theorem out_eq_projOut (X : Fin 8 → Fin 1024 → Fin 768 → EReal) (Wq : Fin 2304 → Fin 768 → EReal)
    (Wo : Fin 768 → Fin 768 → EReal) (B : Fin 768 → EReal) :
    out X Wq Wo B = projOut (heads (qkv X Wq)) Wo B := rfl

/-- The `f32` pattern `0xFF800000` denotes `-∞`, the bottom of the extended reals. -/
theorem ofBits_negInf : Ideal.ofBits .f32 0xFF800000#32 = (⊥ : EReal) := by
  simp [Ideal.ofBits, Ideal.ieee]

end Cert.Spec
-- ==== Proof.Ref.Qkv.lean ====
/-
  The reference's fused projection and its three parts, read at coordinates: the projection at
  (b, n, j) is `Spec.qkv`; after the split of the 2304 columns into (part, head, feature), the
  transposition to (part, b, head, n, feature) and the slice of one part, the array of part `s`
  at (b, h, n, d) is the projection at column `s · 768 + h · 64 + d`.
-/
import proofs.«152500_j40810779246812_2_alg».proof.Proof.Spec
import proofs.«152500_j40810779246812_2_alg».proof.Proof.Gen.ReferenceIdeal.Read

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The input sequences by coordinates. -/
abbrev X (x : (⟨S8x1024x768, .f32⟩ : BufTy).Contents (Elt Ideal)) : Fin 8 → Fin 1024 → Fin 768 → EReal :=
  fun b n c => x (ix3 b n c)
/-- The fused projection's weights by coordinates. -/
abbrev WQ (wq : (⟨S2304x768, .f32⟩ : BufTy).Contents (Elt Ideal)) : Fin 2304 → Fin 768 → EReal :=
  fun j c => wq (ix2 j c)

variable (x : (⟨S8x1024x768, .f32⟩ : BufTy).Contents (Elt Ideal)) (wq : (⟨S2304x768, .f32⟩ : BufTy).Contents (Elt Ideal))

/-- The fused projection at (b, n, j). -/
theorem v0_at (b : Fin 8) (n : Fin 1024) (j : Fin 2304) :
    val_main_v0 (F := Ideal) x wq (ix3 b n j) = Cert.Spec.qkv (X x) (WQ wq) b n j := by
  rw [val_main_v0_apply]
  unfold Cert.Spec.qkv
  refine Finset.sum_congr rfl fun k _ => ?_
  have el : lidx_main_v0 (ix3 b n j) k = ix3 b n k :=
    funext fun a => by match a with | ⟨0, _⟩ => rfl | ⟨1, _⟩ => rfl | ⟨2, _⟩ => rfl
  have er : ridx_main_v0 (ix3 b n j) k = ix2 j k :=
    funext fun a => by match a with | ⟨0, _⟩ => rfl | ⟨1, _⟩ => rfl
  rw [el, er]

/-! The index maps of the layout operations, at coordinates. -/

/-- Dropping the unit axis in front: (b, h, n, d) comes from (0, b, h, n, d). -/
theorem idx4_eq (b : Fin 8) (h : Fin 12) (n : Fin 1024) (d : Fin 64) :
    idx_main_v4 (ix4 b h n d) = ix5 (0 : Fin 1) b h n d := by
  funext a; apply Fin.ext
  have hb := b.isLt; have hh := h.isLt; have hn := n.isLt; have hd := d.isLt
  match a with
  | ⟨0, _⟩ => rfl
  | ⟨1, _⟩ => show ((((b.val * 12 + h.val) * 1024 + n.val) * 64 + d.val) / 786432 % 8 = b.val); omega
  | ⟨2, _⟩ => show ((((b.val * 12 + h.val) * 1024 + n.val) * 64 + d.val) / 65536 % 12 = h.val); omega
  | ⟨3, _⟩ => show ((((b.val * 12 + h.val) * 1024 + n.val) * 64 + d.val) / 64 % 1024 = n.val); omega
  | ⟨4, _⟩ => show ((((b.val * 12 + h.val) * 1024 + n.val) * 64 + d.val) % 64 = d.val); omega

/-- The slices of the parts: part 0, 1, 2 at (0, b, h, n, d) is (s, b, h, n, d). -/
theorem idx3_eq (b : Fin 8) (h : Fin 12) (n : Fin 1024) (d : Fin 64) :
    idx_main_v3 (ix5 (0 : Fin 1) b h n d) = ix5 (0 : Fin 3) b h n d := by
  funext a; apply Fin.ext
  match a with | ⟨0, _⟩ => rfl | ⟨1, _⟩ => rfl | ⟨2, _⟩ => rfl | ⟨3, _⟩ => rfl | ⟨4, _⟩ => rfl
theorem idx5_eq (b : Fin 8) (h : Fin 12) (n : Fin 1024) (d : Fin 64) :
    idx_main_v5 (ix5 (0 : Fin 1) b h n d) = ix5 (1 : Fin 3) b h n d := by
  funext a; apply Fin.ext
  match a with | ⟨0, _⟩ => rfl | ⟨1, _⟩ => rfl | ⟨2, _⟩ => rfl | ⟨3, _⟩ => rfl | ⟨4, _⟩ => rfl
theorem idx7_eq (b : Fin 8) (h : Fin 12) (n : Fin 1024) (d : Fin 64) :
    idx_main_v7 (ix5 (0 : Fin 1) b h n d) = ix5 (2 : Fin 3) b h n d := by
  funext a; apply Fin.ext
  match a with | ⟨0, _⟩ => rfl | ⟨1, _⟩ => rfl | ⟨2, _⟩ => rfl | ⟨3, _⟩ => rfl | ⟨4, _⟩ => rfl

/-- The transposition: (s, b, h, n, d) comes from (b, n, s, h, d). -/
theorem idx2_eq (s : Fin 3) (b : Fin 8) (h : Fin 12) (n : Fin 1024) (d : Fin 64) :
    idx_main_v2 (ix5 s b h n d) = ix5 b n s h d := by
  funext a; apply Fin.ext
  match a with | ⟨0, _⟩ => rfl | ⟨1, _⟩ => rfl | ⟨2, _⟩ => rfl | ⟨3, _⟩ => rfl | ⟨4, _⟩ => rfl

/-- The split of the columns: (b, n, s, h, d) comes from column `s · 768 + h · 64 + d`. -/
theorem idx1_eq (s : Fin 3) (b : Fin 8) (h : Fin 12) (n : Fin 1024) (d : Fin 64) :
    idx_main_v1 (ix5 b n s h d) = ix3 b n (Cert.Spec.col s h d) := by
  funext a; apply Fin.ext
  have hb := b.isLt; have hh := h.isLt; have hn := n.isLt; have hd := d.isLt; have hs := s.isLt
  match a with
  | ⟨0, _⟩ => show (((((b.val * 1024 + n.val) * 3 + s.val) * 12 + h.val) * 64 + d.val) / 2359296 = b.val); omega
  | ⟨1, _⟩ => show (((((b.val * 1024 + n.val) * 3 + s.val) * 12 + h.val) * 64 + d.val) / 2304 % 1024 = n.val); omega
  | ⟨2, _⟩ => show (((((b.val * 1024 + n.val) * 3 + s.val) * 12 + h.val) * 64 + d.val) % 2304 = s.val * 768 + h.val * 64 + d.val); omega

/-- The transposed split at (s, b, h, n, d). -/
theorem v2_at (s : Fin 3) (b : Fin 8) (h : Fin 12) (n : Fin 1024) (d : Fin 64) :
    val_main_v2 (F := Ideal) x wq (ix5 s b h n d) = Cert.Spec.qkv (X x) (WQ wq) b n (Cert.Spec.col s h d) := by
  rw [val_main_v2_apply, idx2_eq, val_main_v1_apply, idx1_eq, v0_at]

/-- The queries at (b, h, n, d). -/
theorem v4_at (b : Fin 8) (h : Fin 12) (n : Fin 1024) (d : Fin 64) :
    val_main_v4 (F := Ideal) x wq (ix4 b h n d) = Cert.Spec.qkv (X x) (WQ wq) b n (Cert.Spec.col 0 h d) := by
  rw [val_main_v4_apply, idx4_eq, val_main_v3_apply, idx3_eq, v2_at]

/-- The keys at (b, h, n, d). -/
theorem v6_at (b : Fin 8) (h : Fin 12) (n : Fin 1024) (d : Fin 64) :
    val_main_v6 (F := Ideal) x wq (ix4 b h n d) = Cert.Spec.qkv (X x) (WQ wq) b n (Cert.Spec.col 1 h d) := by
  rw [val_main_v6_apply, show idx_main_v6 (ix4 b h n d) = ix5 (0 : Fin 1) b h n d from idx4_eq b h n d,
    val_main_v5_apply, idx5_eq, v2_at]

/-- The values at (b, h, n, d). -/
theorem v8_at (b : Fin 8) (h : Fin 12) (n : Fin 1024) (d : Fin 64) :
    val_main_v8 (F := Ideal) x wq (ix4 b h n d) = Cert.Spec.qkv (X x) (WQ wq) b n (Cert.Spec.col 2 h d) := by
  rw [val_main_v8_apply, show idx_main_v8 (ix4 b h n d) = ix5 (0 : Fin 1) b h n d from idx4_eq b h n d,
    val_main_v7_apply, idx7_eq, v2_at]

end Cert.RefValue
-- ==== Proof.Ref.Softmax.lean ====
/-
  The reference's scores and softmax, read at coordinates: the scaled products of queries and keys
  are `Spec.score`; the maximum of a row (a reduction from `-∞`, then a maximum with `-∞`, the
  identity on the extended reals) is `Spec.rowmax`; the exponentials `Spec.p`, their row sums
  (from `0`) `Spec.rowsum`, and the quotients `Spec.attn`.
-/
import proofs.«152500_j40810779246812_2_alg».proof.Proof.Ref.Qkv

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x : (⟨S8x1024x768, .f32⟩ : BufTy).Contents (Elt Ideal)) (wq : (⟨S2304x768, .f32⟩ : BufTy).Contents (Elt Ideal))

/-- The fused projection of the inputs, by coordinates. -/
abbrev QKV : Fin 8 → Fin 1024 → Fin 2304 → EReal := Cert.Spec.qkv (X x) (WQ wq)

/-- The scores at (b, h, q, k). -/
theorem v11_at (b : Fin 8) (h : Fin 12) (q k : Fin 1024) :
    val_main_v11 (F := Ideal) x wq (ix4 b h q k) = Cert.Spec.score (QKV x wq) b h q k := by
  rw [val_main_v11_apply, val_main_v9_apply, val_main_v10_apply, val_main_cst_apply]
  unfold Cert.Spec.score Cert.Spec.eighth
  rw [Ideal.mulf_def, Ideal.ofBits_def]
  refine congrArg (· * Ideal.ofBits .f32 0x3E000000#32) (Finset.sum_congr rfl fun d _ => ?_)
  have el : lidx_main_v9 (ix4 b h q k) d = ix4 b h q d :=
    funext fun a => by match a with | ⟨0, _⟩ => rfl | ⟨1, _⟩ => rfl | ⟨2, _⟩ => rfl | ⟨3, _⟩ => rfl
  have er : ridx_main_v9 (ix4 b h q k) d = ix4 b h k d :=
    funext fun a => by match a with | ⟨0, _⟩ => rfl | ⟨1, _⟩ => rfl | ⟨2, _⟩ => rfl | ⟨3, _⟩ => rfl
  rw [el, er, v4_at, v6_at]

/-- The reduction over the keys drops the last axis. -/
theorem reduces_keys : S8x12x1024x1024.Reduces [3] S8x12x1024 := by decide

/-- The index over (b, h, q) with key `k` put back is (b, h, q, k). -/
theorem lift_keys (b : Fin 8) (h : Fin 12) (q : Fin 1024) (k : Fin (S8x12x1024x1024.size 3)) :
    reduces_keys.lift (ix3 b h q) k = ix4 b h q (⟨k.val, k.isLt⟩ : Fin 1024) := by
  funext c; apply Fin.ext
  match c with | ⟨0, _⟩ => rfl | ⟨1, _⟩ => rfl | ⟨2, _⟩ => rfl | ⟨3, _⟩ => rfl

/-- The row maximum at (b, h, q): the fold of `max` over the keys from `-∞`. -/
theorem v12_at (b : Fin 8) (h : Fin 12) (q : Fin 1024) :
    val_main_v12 (F := Ideal) x wq (ix3 b h q) = Cert.Spec.rowmax (QKV x wq) b h q := by
  unfold val_main_v12
  rw [Host.reduce_eq_fold_single FloatOps.maximumf _ _ reducesTo_S8x12x1024x1024_S8x12x1024_d3 reduces_keys h_S_]
  have hf : (val_main_v11 (F := Ideal) x wq ∘ reduces_keys.lift (ix3 b h q))
      = fun k : Fin 1024 => Cert.Spec.score (QKV x wq) b h q k :=
    funext fun k => by
      show val_main_v11 (F := Ideal) x wq (reduces_keys.lift (ix3 b h q) k) = _
      rw [lift_keys, v11_at]
      rfl
  rw [hf]
  unfold Cert.Spec.rowmax
  show Finset.fold max (Ideal.ofBits .f32 0xFF800000#32) _ _ = _
  rw [Cert.Spec.ofBits_negInf]
  rfl

/-- The maximum with `-∞` changes nothing. -/
theorem v14_at (b : Fin 8) (h : Fin 12) (q : Fin 1024) :
    val_main_v14 (F := Ideal) x wq (ix3 b h q) = Cert.Spec.rowmax (QKV x wq) b h q := by
  rw [val_main_v14_apply, val_main_v13_apply, val_main_cst_1_apply, v12_at, Ideal.maximumf_def, Ideal.ofBits_def,
    Cert.Spec.ofBits_negInf, max_bot_left]

/-- The row maximum broadcast back over the keys. -/
theorem v16_at (b : Fin 8) (h : Fin 12) (q k : Fin 1024) :
    val_main_v16 (F := Ideal) x wq (ix4 b h q k) = Cert.Spec.rowmax (QKV x wq) b h q := by
  rw [val_main_v16_apply, val_main_v15_apply]
  have e : idx_main_v15 (idx_main_v16 (ix4 b h q k)) = ix3 b h q :=
    funext fun a => by match a with | ⟨0, _⟩ => rfl | ⟨1, _⟩ => rfl | ⟨2, _⟩ => rfl
  rw [e, v14_at]

/-- The exponentials at (b, h, q, k). -/
theorem v18_at (b : Fin 8) (h : Fin 12) (q k : Fin 1024) :
    val_main_v18 (F := Ideal) x wq (ix4 b h q k) = Cert.Spec.p (QKV x wq) b h q k := by
  rw [val_main_v18_apply, val_main_v17_apply, v11_at, v16_at, Ideal.subf_def, Ideal.hostUnary_exp_def]
  rfl

/-- The row sums at (b, h, q). -/
theorem v19_at (b : Fin 8) (h : Fin 12) (q : Fin 1024) :
    val_main_v19 (F := Ideal) x wq (ix3 b h q) = Cert.Spec.rowsum (QKV x wq) b h q := by
  rw [val_main_v19_apply, val_main_cst_2_apply, Ideal.ofBits_def, Ideal.ofBits_zero_f32, zero_add]
  unfold Cert.Spec.rowsum
  refine Finset.sum_congr rfl fun k _ => ?_
  have e : idx_main_v19 (ix3 b h q) k = ix4 b h q k :=
    funext fun a => by match a with | ⟨0, _⟩ => rfl | ⟨1, _⟩ => rfl | ⟨2, _⟩ => rfl | ⟨3, _⟩ => rfl
  rw [e, v18_at]

/-- The row sum broadcast back over the keys. -/
theorem v21_at (b : Fin 8) (h : Fin 12) (q k : Fin 1024) :
    val_main_v21 (F := Ideal) x wq (ix4 b h q k) = Cert.Spec.rowsum (QKV x wq) b h q := by
  rw [val_main_v21_apply, val_main_v20_apply]
  have e : idx_main_v20 (idx_main_v21 (ix4 b h q k)) = ix3 b h q :=
    funext fun a => by match a with | ⟨0, _⟩ => rfl | ⟨1, _⟩ => rfl | ⟨2, _⟩ => rfl
  rw [e, v19_at]

/-- The softmax weights at (b, h, q, k). -/
theorem v22_at (b : Fin 8) (h : Fin 12) (q k : Fin 1024) :
    val_main_v22 (F := Ideal) x wq (ix4 b h q k) = Cert.Spec.attn (QKV x wq) b h q k := by
  rw [val_main_v22_apply, v18_at, v21_at, Ideal.hostDivf_def]
  rfl

end Cert.RefValue
-- ==== Proof.Ref.Out.lean ====
/-
  The reference's last stages, read at coordinates: the attention-weighted sums of the values are
  `Spec.ctx`; transposed to (b, n, head, feature) and flattened to 768 columns they are `Spec.heads`
  (column c is head c / 64, feature c % 64); the output projection with its bias is `Spec.out`.
-/
import proofs.«152500_j40810779246812_2_alg».proof.Proof.Ref.Softmax

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x : (⟨S8x1024x768, .f32⟩ : BufTy).Contents (Elt Ideal)) (wq : (⟨S2304x768, .f32⟩ : BufTy).Contents (Elt Ideal))
  (wo : (⟨S768x768, .f32⟩ : BufTy).Contents (Elt Ideal)) (bo : (⟨S768, .f32⟩ : BufTy).Contents (Elt Ideal))

/-- The heads' outputs at (b, h, q, d). -/
theorem v23_at (b : Fin 8) (h : Fin 12) (q : Fin 1024) (d : Fin 64) :
    val_main_v23 (F := Ideal) x wq (ix4 b h q d) = Cert.Spec.ctx (QKV x wq) b h q d := by
  rw [val_main_v23_apply]
  unfold Cert.Spec.ctx
  refine Finset.sum_congr rfl fun k _ => ?_
  have el : lidx_main_v23 (ix4 b h q d) k = ix4 b h q k :=
    funext fun a => by match a with | ⟨0, _⟩ => rfl | ⟨1, _⟩ => rfl | ⟨2, _⟩ => rfl | ⟨3, _⟩ => rfl
  have er : ridx_main_v23 (ix4 b h q d) k = ix4 b h k d :=
    funext fun a => by match a with | ⟨0, _⟩ => rfl | ⟨1, _⟩ => rfl | ⟨2, _⟩ => rfl | ⟨3, _⟩ => rfl
  rw [el, er, v22_at, v8_at]

/-- Column `c` of token (b, n) comes from head `c / 64`, feature `c % 64`. -/
theorem idx25_eq (b : Fin 8) (n : Fin 1024) (c : Fin 768) :
    idx_main_v24 (idx_main_v25 (ix3 b n c))
      = ix4 b (⟨c.val / 64, by have := c.isLt; omega⟩ : Fin 12) n (⟨c.val % 64, by omega⟩ : Fin 64) := by
  funext a; apply Fin.ext
  have hb := b.isLt; have hn := n.isLt; have hc := c.isLt
  match a with
  | ⟨0, _⟩ => show ((b.val * 1024 + n.val) * 768 + c.val) / 786432 = b.val; omega
  | ⟨1, _⟩ => show ((b.val * 1024 + n.val) * 768 + c.val) / 64 % 12 = c.val / 64; omega
  | ⟨2, _⟩ => show ((b.val * 1024 + n.val) * 768 + c.val) / 768 % 1024 = n.val; omega
  | ⟨3, _⟩ => show ((b.val * 1024 + n.val) * 768 + c.val) % 64 = c.val % 64; omega

/-- The heads laid side by side at (b, n, c). -/
theorem v25_at (b : Fin 8) (n : Fin 1024) (c : Fin 768) :
    val_main_v25 (F := Ideal) x wq (ix3 b n c) = Cert.Spec.heads (QKV x wq) b n c := by
  rw [val_main_v25_apply, val_main_v24_apply, idx25_eq, v23_at]
  rfl

/-- The output projection's weights and bias by coordinates. -/
abbrev WO : Fin 768 → Fin 768 → EReal := fun j c => wo (ix2 j c)
abbrev BO : Fin 768 → EReal := fun j => bo (ix1 j)

/-- The reference's result at (b, n, j) is the specification's. -/
theorem ref_eq (b : Fin 8) (n : Fin 1024) (j : Fin 768) :
    Cert.ReferenceIdeal.Read.val_main_v29 x wq wo bo (ValueIdx.ix3 b n j)
      = Cert.Spec.out (fun b n c => x (ValueIdx.ix3 b n c)) (fun j c => wq (ValueIdx.ix2 j c))
          (fun j c => wo (ValueIdx.ix2 j c)) (fun j => bo (ValueIdx.ix1 j)) b n j := by
  rw [val_main_v29_apply, val_main_v26_apply, val_main_v28_apply, val_main_v27_apply, Ideal.addf_def]
  have eb : idx_main_v27 (idx_main_v28 (ix3 b n j)) = ix1 j :=
    funext fun a => by match a with | ⟨0, _⟩ => rfl
  rw [eb]
  unfold Cert.Spec.out
  refine congrArg (· + bo (ix1 j)) (Finset.sum_congr rfl fun c _ => ?_)
  have el : lidx_main_v26 (ix3 b n j) c = ix3 b n c :=
    funext fun a => by match a with | ⟨0, _⟩ => rfl | ⟨1, _⟩ => rfl | ⟨2, _⟩ => rfl
  have er : ridx_main_v26 (ix3 b n j) c = ix2 j c :=
    funext fun a => by match a with | ⟨0, _⟩ => rfl | ⟨1, _⟩ => rfl
  rw [el, er, v25_at]
  rfl

end Cert.RefValue
-- ==== Proof.Val.Host.lean ====
/-
  The host operations around the three regions, read at coordinates at the ideal values, for arbitrary
  contents `W` of the buffers before them. Before the regions: the input sequences flattened to 8192
  rows (row r is token r % 1024 of sequence r / 1024), the two weight matrices transposed, and a zero
  bias row. After them: the 8192 rows unflattened (token n of sequence b is row b · 1024 + n).
-/
import proofs.«152500_j40810779246812_2_alg».proof.Proof.Gen.KernelIdeal.Launch
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem
  Idealize.ShloMosaic.StableHlo Idealize.ShloMosaic.ValueIdx

variable (W : Valuation τ sig (Elt Ideal))

/-- The flattened input: row `r`, column `k` is token `r % 1024` of sequence `r / 1024`. -/
theorem host_v0 (r : Fin 8192) (k : Fin 768) :
    (StableHlo.after (hostOps0 (F := Ideal)) W (Proc.devRef .tc main_v0) : S8192x768.Idx → EReal) (ix2 r k)
      = (W (Proc.devRef .tc main_arg0) : S8x1024x768.Idx → EReal)
          (ix3 (⟨r.val / 1024, by have := r.isLt; omega⟩ : Fin 8) (⟨r.val % 1024, by omega⟩ : Fin 1024) k) := by
  have e : (StableHlo.after (hostOps0 (F := Ideal)) W (Proc.devRef .tc main_v0) : S8192x768.Idx → EReal)
      = shapeCast S8192x768 (W (Proc.devRef .tc main_arg0) : S8x1024x768.Idx → EReal) shapeCasts_S8x1024x768_S8192x768 := by
    after_results; rfl
  rw [e]
  refine shapeCast_apply _ shapeCasts_S8x1024x768_S8192x768 _ _ ?_
  rewrite [Shape.rowMajor_val_three, Shape.rowMajor_val_two]
  have hr := r.isLt; have hk := k.isLt
  show (r.val / 1024 * 1024 + r.val % 1024) * 768 + k.val = r.val * 768 + k.val
  omega

/-- The fused projection's weights transposed: (k, j) is (j, k) of the argument. -/
theorem host_v1 (k : Fin 768) (j : Fin 2304) :
    (StableHlo.after (hostOps0 (F := Ideal)) W (Proc.devRef .tc main_v1) : S768x2304.Idx → EReal) (ix2 k j)
      = (W (Proc.devRef .tc main_arg1) : S2304x768.Idx → EReal) (ix2 j k) := by
  have e : (StableHlo.after (hostOps0 (F := Ideal)) W (Proc.devRef .tc main_v1) : S768x2304.Idx → EReal)
      = transpose S768x2304 [1, 0] (W (Proc.devRef .tc main_arg1) : S2304x768.Idx → EReal) transposes_S2304x768_S768x2304_1_0 := by
    after_results
  rw [e]
  exact transpose_apply [1, 0] _ transposes_S2304x768_S768x2304_1_0 (ix2 k j) (ix2 j k) (fun b => match b with
    | ⟨0, _⟩ => rfl
    | ⟨1, _⟩ => rfl)

/-- The output projection's weights transposed: (k, j) is (j, k) of the argument. -/
theorem host_v2 (k : Fin 768) (j : Fin 768) :
    (StableHlo.after (hostOps0 (F := Ideal)) W (Proc.devRef .tc main_v2) : S768x768.Idx → EReal) (ix2 k j)
      = (W (Proc.devRef .tc main_arg2) : S768x768.Idx → EReal) (ix2 j k) := by
  have e : (StableHlo.after (hostOps0 (F := Ideal)) W (Proc.devRef .tc main_v2) : S768x768.Idx → EReal)
      = transpose S768x768 [1, 0] (W (Proc.devRef .tc main_arg2) : S768x768.Idx → EReal) transposes_S768x768_S768x768_1_0 := by
    after_results
  rw [e]
  exact transpose_apply [1, 0] _ transposes_S768x768_S768x768_1_0 (ix2 k j) (ix2 j k) (fun b => match b with
    | ⟨0, _⟩ => rfl
    | ⟨1, _⟩ => rfl)

/-- The fused projection's bias row is zero. -/
theorem host_v3 (j : Fin 2304) :
    (StableHlo.after (hostOps0 (F := Ideal)) W (Proc.devRef .tc main_v3) : S2304.Idx → EReal) (ix1 j) = (0 : EReal) := by
  have e : (StableHlo.after (hostOps0 (F := Ideal)) W (Proc.devRef .tc main_v3) : S2304.Idx → EReal)
      = broadcastInDim S2304 ![] bcast_S_S2304 (constant (F := Ideal) S_ .f32 0x00000000#32) := by
    after_results
  rw [e, broadcastInDim_apply _ bcast_S_S2304 _ (ix1 j) ix0 (fun a => a.elim0)]
  exact Ideal.ofBits_zero_f32

/-- The output projection's bias is not written before the regions. -/
theorem host_arg3 :
    StableHlo.after (hostOps0 (F := Ideal)) W (Proc.devRef .tc main_arg3) = W (Proc.devRef .tc main_arg3) := by
  after_results

/-- After the regions the 8192 rows are unflattened: token `n` of sequence `b` is row `b · 1024 + n`. -/
theorem host_v7 (b : Fin 8) (n : Fin 1024) (j : Fin 768) :
    (StableHlo.after (hostOps3 (F := Ideal)) W (Proc.devRef .tc main_v7) : S8x1024x768.Idx → EReal) (ix3 b n j)
      = (W (Proc.devRef .tc main_v6) : S8192x768.Idx → EReal)
          (ix2 (⟨b.val * 1024 + n.val, by have := b.isLt; have := n.isLt; omega⟩ : Fin 8192) j) := by
  have e : (StableHlo.after (hostOps3 (F := Ideal)) W (Proc.devRef .tc main_v7) : S8x1024x768.Idx → EReal)
      = shapeCast S8x1024x768 (W (Proc.devRef .tc main_v6) : S8192x768.Idx → EReal) shapeCasts_S8192x768_S8x1024x768 := by
    after_results; rfl
  rw [e]
  refine shapeCast_apply _ shapeCasts_S8192x768_S8x1024x768 _ _ ?_
  rewrite [Shape.rowMajor_val_three, Shape.rowMajor_val_two]
  rfl

end Cert.KernelIdeal.Val
-- ==== Proof.Val.Bridge.lean ====
/-
  The kernel's result is the specification, given what each of the three regions leaves in its output
  array as a function of the buffers it is entered with. The result at (b, n, j) is row b · 1024 + n of
  region 2's array: the projection of region 1's array by the transposed output weights plus the bias.
  Region 1's array at row b · 1024 + n, column h · 64 + d is head h's output for query n, feature d, of
  region 0's array, and region 0's array is the fused projection (its bias row is zero). The other
  buffers the regions read are written by no region, so they are read as the first host operations leave
  them.
-/
import proofs.«152500_j40810779246812_2_alg».proof.Proof.KI.Run
import proofs.«152500_j40810779246812_2_alg».proof.Proof.Spec
import proofs.«152500_j40810779246812_2_alg».proof.Proof.Val.Host

set_option maxRecDepth 16384

noncomputable section

namespace Cert.KernelIdeal.Val

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand
open Idealize.ShloMosaic.StableHlo Idealize.ShloMosaic.ValueIdx
open scoped BigOperators

/-- Row `b · 1024 + n` of the flattened arrays. -/
abbrev row (b : Fin 8) (n : Fin 1024) : Fin 8192 := ⟨b.val * 1024 + n.val, by have := b.isLt; have := n.isLt; omega⟩
/-- Column `h · 64 + d` of the heads laid side by side. -/
abbrev hcol (h : Fin 12) (d : Fin 64) : Fin 768 := ⟨h.val * 64 + d.val, by have := h.isLt; have := d.isLt; omega⟩

variable (m : (ℓ : Loc nD τ sig) → Buf (Elt Ideal) ℓ) (c : Dev nD)

/-- The arguments by coordinates. -/
abbrev Xm : Fin 8 → Fin 1024 → Fin 768 → EReal := fun b n k => m ((c : Thread nD τ).loc main_arg0) (ix3 b n k)
abbrev Wqm : Fin 2304 → Fin 768 → EReal := fun j k => m ((c : Thread nD τ).loc main_arg1) (ix2 j k)
abbrev Wom : Fin 768 → Fin 768 → EReal := fun j k => m ((c : Thread nD τ).loc main_arg2) (ix2 j k)
abbrev Bm : Fin 768 → EReal := fun j => m ((c : Thread nD τ).loc main_arg3) (ix1 j)

/-! ## The buffers no region writes, as the regions find them -/

theorem va_v0 (b : Fin 8) (n : Fin 1024) (k : Fin 768) :
    (VAW (F := Ideal) m c (Proc.devRef .tc main_v0) : S8192x768.Idx → EReal) (ix2 (row b n) k) = Xm m c b n k := by
  refine (host_v0 (Gen.V0 m c) (row b n) k).trans ?_
  have hb := b.isLt; have hn := n.isLt
  refine congrArg (m ((c : Thread nD τ).loc main_arg0) : S8x1024x768.Idx → EReal) ?_
  funext a; apply Fin.ext
  match a with
  | ⟨0, _⟩ => show (b.val * 1024 + n.val) / 1024 = b.val; omega
  | ⟨1, _⟩ => show (b.val * 1024 + n.val) % 1024 = n.val; omega
  | ⟨2, _⟩ => rfl

theorem va_v1 (k : Fin 768) (j : Fin 2304) :
    (VAW (F := Ideal) m c (Proc.devRef .tc main_v1) : S768x2304.Idx → EReal) (ix2 k j) = Wqm m c j k :=
  host_v1 (Gen.V0 m c) k j

theorem va_v2 (k : Fin 768) (j : Fin 768) :
    (VAW (F := Ideal) m c (Proc.devRef .tc main_v2) : S768x768.Idx → EReal) (ix2 k j) = Wom m c j k :=
  host_v2 (Gen.V0 m c) k j

theorem va_v3 (j : Fin 2304) :
    (VAW (F := Ideal) m c (Proc.devRef .tc main_v3) : S2304.Idx → EReal) (ix1 j) = (0 : EReal) :=
  host_v3 (Gen.V0 m c) j

theorem va_arg3 (j : Fin 768) :
    (VAW (F := Ideal) m c (Proc.devRef .tc main_arg3) : S768.Idx → EReal) (ix1 j) = Bm m c j :=
  congrFun (host_arg3 (Gen.V0 m c)) (ix1 j)

/-! ## Through the regions -/

/-- A buffer of extended reals read at an index, typed as an extended real (the printed element type of a buffer
    is computed from the signature, and arithmetic is stated on `EReal`). -/
abbrev rd {s : Shape} (f : s.Idx → EReal) (i : s.Idx) : EReal := f i

/-- What region 0 is to leave: the projection of the flattened input by the transposed weights, plus the bias row. -/
abbrev Final0 : Prop :=
  ∀ (V : (c : Dev nD) → (b : Ref sig .tc) → Buf (Elt Ideal) ((c : Thread nD τ).loc b)) (c : Dev nD) (r : Fin 8192) (j : Fin 2304),
    ((dat0 (F := Ideal) V c).arrAt 3 cfg0.N : S8192x2304.Idx → EReal) (ix2 r j)
      = (∑ k : Fin 768, rd (s := S8192x768) (V c main_v0) (ix2 r k) * rd (s := S768x2304) (V c main_v1) (ix2 k j))
        + rd (s := S2304) (V c main_v3) (ix1 j)

/-- What region 1 is to leave: each head's attention output of the array it reads. -/
abbrev Final1 : Prop :=
  ∀ (V : (c : Dev nD) → (b : Ref sig .tc) → Buf (Elt Ideal) ((c : Thread nD τ).loc b)) (c : Dev nD)
    (b : Fin 8) (h : Fin 12) (n : Fin 1024) (d : Fin 64),
    ((dat1 (F := Ideal) V c).arrAt 3 cfg1.N : S8192x768.Idx → EReal) (ix2 (row b n) (hcol h d))
      = Cert.Spec.ctx (fun b n j => (V c main_v4 : S8192x2304.Idx → EReal) (ix2 (row b n) j)) b h n d

/-- What region 2 is to leave: the projection of the attention array by the transposed weights, plus the bias. -/
abbrev Final2 : Prop :=
  ∀ (V : (c : Dev nD) → (b : Ref sig .tc) → Buf (Elt Ideal) ((c : Thread nD τ).loc b)) (c : Dev nD) (r : Fin 8192) (j : Fin 768),
    ((dat2 (F := Ideal) V c).arrAt 3 cfg2.N : S8192x768.Idx → EReal) (ix2 r j)
      = (∑ k : Fin 768, rd (s := S8192x768) (V c main_v5) (ix2 r k) * rd (s := S768x768) (V c main_v2) (ix2 k j))
        + rd (s := S768) (V c main_arg3) (ix1 j)

/-- Region 0's array is the fused projection of the arguments. -/
theorem vb_v4 (h0 : Final0) (b : Fin 8) (n : Fin 1024) (j : Fin 2304) :
    (VBW (F := Ideal) m c (Proc.devRef .tc main_v4) : S8192x2304.Idx → EReal) (ix2 (row b n) j)
      = Cert.Spec.qkv (Xm m c) (Wqm m c) b n j := by
  have e : (VBW (F := Ideal) m c (Proc.devRef .tc main_v4) : S8192x2304.Idx → EReal)
      = ((dat0 (F := Ideal) (VA m) c).arrAt 3 cfg0.N : S8192x2304.Idx → EReal) := VBW_self m c
  rw [e]
  refine (h0 (VA m) c (row b n) j).trans ?_
  unfold Cert.Spec.qkv
  have e3 : rd (s := S2304) (VA (F := Ideal) m c main_v3) (ix1 j) = (0 : EReal) := va_v3 m c j
  have es : (∑ k : Fin 768, rd (s := S8192x768) (VA (F := Ideal) m c main_v0) (ix2 (row b n) k)
        * rd (s := S768x2304) (VA (F := Ideal) m c main_v1) (ix2 k j))
      = ∑ k : Fin 768, Xm m c b n k * Wqm m c j k :=
    Finset.sum_congr rfl fun k _ => by
      have a0 : rd (s := S8192x768) (VA (F := Ideal) m c main_v0) (ix2 (row b n) k) = Xm m c b n k := va_v0 m c b n k
      have a1 : rd (s := S768x2304) (VA (F := Ideal) m c main_v1) (ix2 k j) = Wqm m c j k := va_v1 m c k j
      rw [a0, a1]
  rw [es, e3, add_zero]

/-- Region 1's array is the heads' outputs of the fused projection, side by side. -/
theorem vc_v5 (h0 : Final0) (h1 : Final1) (b : Fin 8) (n : Fin 1024) (k : Fin 768) :
    (VCW (F := Ideal) m c (Proc.devRef .tc main_v5) : S8192x768.Idx → EReal) (ix2 (row b n) k)
      = Cert.Spec.ctx (Cert.Spec.qkv (Xm m c) (Wqm m c)) b (⟨k.val / 64, by have := k.isLt; omega⟩ : Fin 12) n
          (⟨k.val % 64, by omega⟩ : Fin 64) := by
  have e : (VCW (F := Ideal) m c (Proc.devRef .tc main_v5) : S8192x768.Idx → EReal)
      = ((dat1 (F := Ideal) (VB m) c).arrAt 3 cfg1.N : S8192x768.Idx → EReal) := VCW_self m c
  have hk : k = hcol (⟨k.val / 64, by have := k.isLt; omega⟩ : Fin 12) (⟨k.val % 64, by omega⟩ : Fin 64) :=
    Fin.ext (by show k.val = k.val / 64 * 64 + k.val % 64; omega)
  have hq : (fun (b : Fin 8) (n : Fin 1024) (j : Fin 2304) =>
        (VB (F := Ideal) m c main_v4 : S8192x2304.Idx → EReal) (ix2 (row b n) j))
      = Cert.Spec.qkv (Xm m c) (Wqm m c) :=
    funext fun b => funext fun n => funext fun j => vb_v4 m c h0 b n j
  rw [e]
  conv_lhs => rw [hk]
  refine (h1 (VB m) c b _ n _).trans ?_
  rw [hq]

/-- The transposed output weights, as region 2 finds them. -/
theorem vc_v2 (k j : Fin 768) :
    (VCW (F := Ideal) m c (Proc.devRef .tc main_v2) : S768x768.Idx → EReal) (ix2 k j) = Wom m c j k := by
  have e : VCW (F := Ideal) m c (Proc.devRef .tc main_v2) = VAW (F := Ideal) m c (Proc.devRef .tc main_v2) :=
    (VCW_of_ne m c main_v2 (by decide)).trans (VBW_of_ne m c main_v2 (by decide))
  rw [e]
  exact va_v2 m c k j

/-- The output bias, as region 2 finds it. -/
theorem vc_arg3 (j : Fin 768) :
    (VCW (F := Ideal) m c (Proc.devRef .tc main_arg3) : S768.Idx → EReal) (ix1 j) = Bm m c j := by
  have e : VCW (F := Ideal) m c (Proc.devRef .tc main_arg3) = VAW (F := Ideal) m c (Proc.devRef .tc main_arg3) :=
    (VCW_of_ne m c main_arg3 (by decide)).trans (VBW_of_ne m c main_arg3 (by decide))
  rw [e]
  exact va_arg3 m c j

/-- THE RESULT: given the three regions' arrays, the program's result at (b, n, j) is the specification's. -/
theorem result_eq_of (h0 : Final0) (h1 : Final1) (h2 : Final2) (b : Fin 8) (n : Fin 1024) (j : Fin 768) :
    (VEW (F := Ideal) m c (Proc.devRef .tc main_v7) : S8x1024x768.Idx → EReal) (ix3 b n j)
      = Cert.Spec.out (Xm m c) (Wqm m c) (Wom m c) (Bm m c) b n j := by
  refine (host_v7 (VDW (F := Ideal) m c) b n j).trans ?_
  have e : (VDW (F := Ideal) m c (Proc.devRef .tc main_v6) : S8192x768.Idx → EReal)
      = ((dat2 (F := Ideal) (VC m) c).arrAt 3 cfg2.N : S8192x768.Idx → EReal) := VDW_self m c
  rw [e]
  refine (h2 (VC m) c (row b n) j).trans ?_
  unfold Cert.Spec.out
  have e3 : rd (s := S768) (VC (F := Ideal) m c main_arg3) (ix1 j) = Bm m c j := vc_arg3 m c j
  have es : (∑ k : Fin 768, rd (s := S8192x768) (VC (F := Ideal) m c main_v5) (ix2 (row b n) k)
        * rd (s := S768x768) (VC (F := Ideal) m c main_v2) (ix2 k j))
      = ∑ k : Fin 768, Cert.Spec.ctx (Cert.Spec.qkv (Xm m c) (Wqm m c)) b (⟨k.val / 64, by have := k.isLt; omega⟩ : Fin 12) n
          (⟨k.val % 64, by omega⟩ : Fin 64) * Wom m c j k :=
    Finset.sum_congr rfl fun k _ => by
      have a0 : rd (s := S8192x768) (VC (F := Ideal) m c main_v5) (ix2 (row b n) k)
          = Cert.Spec.ctx (Cert.Spec.qkv (Xm m c) (Wqm m c)) b (⟨k.val / 64, by have := k.isLt; omega⟩ : Fin 12) n
              (⟨k.val % 64, by omega⟩ : Fin 64) := vc_v5 m c h0 h1 b n k
      have a1 : rd (s := S768x768) (VC (F := Ideal) m c main_v2) (ix2 k j) = Wom m c j k := vc_v2 m c k j
      rw [a0, a1]
  rw [es, e3]

end Cert.KernelIdeal.Val
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.Val.LinBase.lean ====
/-
  The offsets of an access of a whole block are all zero, however the zeros are spelt.
-/
import Mathlib.Data.Fin.VecNotation

namespace Cert.KernelIdeal.Val

/-- The two zero offsets of a whole-block access of a matrix. -/
theorem zero2 : (![0, 0] : Fin 2 → Nat) = fun _ => 0 :=
  funext fun a => by match a with | ⟨0, _⟩ => rfl | ⟨1, _⟩ => rfl

/-- The zero offset of a whole-block access of a vector. -/
theorem zero1 : (![0] : Fin 1 → Nat) = fun _ => 0 :=
  funext fun a => by match a with | ⟨0, _⟩ => rfl

end Cert.KernelIdeal.Val
-- ==== Proof.Val.Lin0Pay.lean ====
/-
  The fused q/k/v projection's output block, entry by entry, on the extended reals.

  The body loads its whole [512, 768] row block x, the whole [768, 2304] transposed weight w and the [2304] bias b,
  and stores ONE [512, 2304] block: the matrix product x · w accumulated into the zero matrix, plus b laid as a row
  and repeated down the 512 rows. On the extended reals the roundings to the narrow format on the way into the
  product and on the way out are the identity, a reshape to the same shape is the identity, and a product into the
  zero accumulator is the plain sum over the contraction index. So entry (p, j) of the block is

      (∑ k, x (p, k) * w (k, j)) + b (j).
-/
import proofs.«152500_j40810779246812_2_alg».proof.Proof.KI.Outs
import proofs.«152500_j40810779246812_2_alg».proof.Proof.LibLayout
import proofs.«152500_j40810779246812_2_alg».proof.Proof.Val.LinBase
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Hand
/-- The product's left operand is read in the output entry's row. -/
theorem dot0_lhs_row (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl

/-- The product's right operand is read in the output entry's column. -/
theorem dot0_rhs_col (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The projection's arithmetic at entry (p, j): the row of x against the column of w, plus the bias at j. -/
theorem k0_pay1_apply (x : Vec Ideal S512x768 .f32) (w : Vec Ideal S768x2304 .f32) (b : Vec Ideal S2304 .f32)
    (p : Fin 512) (j : Fin 2304) :
    k0_pay1 (F := Ideal) x w b (ix2 p j) = (∑ k : Fin 768, x (ix2 p k) * w (ix2 k j)) + b (ix1 j) := by
  unfold k0_pay1
  rw [shapeCast_self, shapeCast_self, shapeCast_self]
  have hM := Cert.LibLayout.matmul_rows_cols_apply dot_S512x768_S768x2304_S512x2304_1_0_0_1_n_n rfl rfl rfl rfl dot0_lhs_row dot0_rhs_col none
    (truncf .bf16 x bitsLt_bf16_f32) (truncf .bf16 w bitsLt_bf16_f32) p j
  have hB := Cert.LibLayout.rowBias_apply (a := 512) b shapeCasts_S2304_S1x2304 broadcasts_S1x2304_S512x2304 p j
  exact congr (congrArg HAdd.hAdd hM) hB

/-- THE OUTPUT BLOCK of the fused projection at entry (p, j), from the three input blocks. -/
theorem out0_3_apply (x0 : Vec Ideal S512x768 .f32) (x1 : Vec Ideal S768x2304 .f32) (x2 : Vec Ideal S2304 .f32)
    (p : Fin 512) (j : Fin 2304) :
    out0_3 (F := Ideal) x0 x1 x2 (ix2 p j) = (∑ k : Fin 768, x0 (ix2 p k) * x1 (ix2 k j)) + x2 (ix1 j) := by
  unfold out0_3
  rw [View.canon_unit_zero zero2]
  rw [View.ld_unit_zero (S := S512x768) zero2, View.ld_unit_zero (S := S768x2304) zero2, View.ld_unit_zero (S := S2304) zero1]
  exact k0_pay1_apply x0 x1 x2 p j

end Cert.KernelIdeal.Val

end
-- ==== Proof.Val.Lin0Arr.lean ====
/-
  The fused q/k/v projection's output array after its region, as ONE function of the arrays the region finds.

  The region runs over 16 grid points. Point t reads rows 512 t … 512 t + 511 of the [8192, 768] array x, the whole
  [768, 2304] transposed weight and the whole [2304] bias, and writes back rows 512 t … 512 t + 511 of the
  [8192, 2304] output: its block is the product of its row block with the weight, plus the bias row. A row of a
  matrix product depends on that row of the left operand only, so each written block is the matching block of the
  product of the WHOLE array x with the weight plus the bias; and the 16 row blocks tile the 8192 rows (row r lies
  in the block of point r / 512). Hence the output array ends holding, at (r, j),

      (∑ k, x (r, k) * w (k, j)) + b (j).
-/
import proofs.«152500_j40810779246812_2_alg».proof.Proof.KI.Data
import proofs.«152500_j40810779246812_2_alg».proof.Proof.Val.Lin0Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The fused projection of a whole [8192, 768] array X by the [768, 2304] matrix W with the bias B: entry (r, j) is
    the row r of X against the column j of W, plus B (j). -/
def proj0 (X : S8192x768.Idx → Elt Ideal .f32) (W : S768x2304.Idx → Elt Ideal .f32) (B : S2304.Idx → Elt Ideal .f32) :
    S8192x2304.Idx → Elt Ideal .bf16 := fun i =>
  (∑ k : Fin 768, X (ix2 (⟨(i 0).val, idx2_lt0 i⟩ : Fin 8192) k) * W (ix2 k (⟨(i 1).val, idx2_lt1 i⟩ : Fin 2304)))
    + B (ix1 (⟨(i 1).val, idx2_lt1 i⟩ : Fin 2304))

theorem proj0_apply (X : S8192x768.Idx → Elt Ideal .f32) (W : S768x2304.Idx → Elt Ideal .f32) (B : S2304.Idx → Elt Ideal .f32)
    (r : Fin 8192) (j : Fin 2304) :
    proj0 X W B (ix2 r j) = (∑ k : Fin 768, X (ix2 r k) * W (ix2 k j)) + B (ix1 j) := rfl

/-- The index maps over the grid: at point t the row-block windows (x and the output) sit at block row t, the weight
    and the bias at their only block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- ONE POINT'S BLOCK is a block of the whole-array projection: if the point's x block is rows 512 t … 512 t + 511 of
    X, its weight block is W and its bias block is B, then entry (p, q) of its output block is entry (512 t + p, q) of
    the projection of X. -/
theorem block0_eq (X : S8192x768.Idx → Elt Ideal .f32) (W : S768x2304.Idx → Elt Ideal .f32) (B : S2304.Idx → Elt Ideal .f32)
    (x0 : Vec Ideal S512x768 .f32) (x1 : Vec Ideal S768x2304 .f32) (x2 : Vec Ideal S2304 .f32) (tv : Nat)
    (h0 : ∀ (p : Fin 512) (k : Fin 768) (r : Fin 8192), r.val = tv * 512 + p.val → x0 (ix2 p k) = X (ix2 r k))
    (h1 : ∀ (k : Fin 768) (j : Fin 2304), x1 (ix2 k j) = W (ix2 k j))
    (h2 : ∀ j : Fin 2304, x2 (ix1 j) = B (ix1 j))
    (p : Fin 512) (q : Fin 2304) (i : S8192x2304.Idx) (hi0 : (i 0).val = tv * 512 + p.val) (hi1 : (i 1).val = q.val) :
    out0_3 (F := Ideal) x0 x1 x2 (ix2 p q) = proj0 X W B i := by
  refine (out0_3_apply x0 x1 x2 p q).trans ?_
  have hq : (⟨(i 1).val, idx2_lt1 i⟩ : Fin 2304) = q := Fin.ext hi1
  unfold proj0
  rw [hq, h2 q]
  refine congrArg (· + B (ix1 q)) (Finset.sum_congr rfl fun k _ => ?_)
  rw [h0 p k ⟨(i 0).val, idx2_lt0 i⟩ hi0, h1 k q]

/-- The x window's block at point t is rows 512 t … 512 t + 511 of the array. -/
theorem iblk0_0_apply (c : Dev nD) (t : Fin cfg0.N) (p : Fin 512) (k : Fin 768) (r : Fin 8192)
    (hr : r.val = t.val * 512 + p.val) :
    (iblk0 V c 0 t : Vec Ideal S512x768 .f32) (ix2 p k) = (V c main_v0 : S8192x768.Idx → Elt Ideal .f32) (ix2 r k) := by
  obtain ⟨e0, e1, -⟩ := idx0 t
  unfold iblk0
  rw [View.read_apply]
  show (V c main_v0 : S8192x768.Idx → Elt Ideal .f32) _ = _
  refine congrArg (V c main_v0 : S8192x768.Idx → Elt Ideal .f32) (funext fun a => Fin.ext ?_)
  match a with
  | ⟨0, _⟩ => show win0_0.index t (0 : Fin 2) * 512 + 1 * p.val = r.val; omega
  | ⟨1, _⟩ => show win0_0.index t (1 : Fin 2) * 768 + 1 * k.val = k.val; omega

/-- The weight window's only block is the whole array. -/
theorem iblk0_1_apply (c : Dev nD) (t : Fin cfg0.N) (k : Fin 768) (j : Fin 2304) :
    (iblk0 V c 1 t : Vec Ideal S768x2304 .f32) (ix2 k j) = (V c main_v1 : S768x2304.Idx → Elt Ideal .f32) (ix2 k j) := by
  obtain ⟨-, -, e2, e3, -⟩ := idx0 t
  unfold iblk0
  rw [View.read_apply]
  show (V c main_v1 : S768x2304.Idx → Elt Ideal .f32) _ = _
  refine congrArg (V c main_v1 : S768x2304.Idx → Elt Ideal .f32) (funext fun a => Fin.ext ?_)
  match a with
  | ⟨0, _⟩ => show win0_1.index t (0 : Fin 2) * 768 + 1 * k.val = k.val; omega
  | ⟨1, _⟩ => show win0_1.index t (1 : Fin 2) * 2304 + 1 * j.val = j.val; omega

/-- The bias window's only block is the whole vector. -/
theorem iblk0_2_apply (c : Dev nD) (t : Fin cfg0.N) (j : Fin 2304) :
    (iblk0 V c 2 t : Vec Ideal S2304 .f32) (ix1 j) = (V c main_v3 : S2304.Idx → Elt Ideal .f32) (ix1 j) := by
  obtain ⟨-, -, -, -, e4, -⟩ := idx0 t
  unfold iblk0
  rw [View.read_apply]
  show (V c main_v3 : S2304.Idx → Elt Ideal .f32) _ = _
  refine congrArg (V c main_v3 : S2304.Idx → Elt Ideal .f32) (funext fun a => Fin.ext ?_)
  match a with
  | ⟨0, _⟩ => show win0_2.index t (0 : Fin 1) * 2304 + 1 * j.val = j.val; omega

/-- WHAT POINT t WRITES BACK is block t of the projection of the arrays as the region finds them. -/
theorem flushed0_eq (c : Dev nD) (t : Fin cfg0.N) :
    (dat0 (F := Ideal) V c).flushed 3 t
      = ((cfg0.win 3).blk t).view.read (Elt Ideal) (proj0 (V c main_v0) (V c main_v1) (V c main_v3)) := by
  show (cfg0.win 3).cut (grid0.coords t) ((dat0 (F := Ideal) V c).after 3 t) = _
  rw [after0_3]
  obtain ⟨-, -, -, -, -, e5, e6⟩ := idx0 t
  funext y
  obtain ⟨p, q, rfl⟩ : ∃ (p : Fin 512) (q : Fin 2304), y = ix2 p q := ⟨y 0, y 1, eq_ix2 y⟩
  rw [View.read_apply]
  refine block0_eq (V c main_v0) (V c main_v1) (V c main_v3) (iblk0 V c 0 t) (iblk0 V c 1 t) (iblk0 V c 2 t) t.val
    (iblk0_0_apply V c t) (iblk0_1_apply V c t) (iblk0_2_apply V c t) p q _ ?_ ?_
  · show win0_3.index t (0 : Fin 2) * 512 + 1 * p.val = t.val * 512 + p.val; omega
  · show win0_3.index t (1 : Fin 2) * 2304 + 1 * q.val = q.val; omega

/-- An index of the array is in point t's block iff each coordinate is in the block's range on its axis. -/
theorem mem_blk0 (t : Fin cfg0.N) (i : S8192x2304.Idx) :
    i ∈ ((cfg0.win 3).blk t).view.set ↔ ∀ a : Fin 2, win0_3.index t a * S512x2304.size a ≤ (i a).val
      ∧ (i a).val < win0_3.index t a * S512x2304.size a + S512x2304.size a := by
  show i ∈ ((View.whole main_v4).slice (win0_3.rect t)).set ↔ _
  rw [View.set_slice_whole, Rect.mem_set_unit]
  exact Iff.rfl

/-- THE BLOCKS COVER THE ARRAY: row r lies in the block of point r / 512, and every block spans all 2304 columns. -/
theorem cover0 (i : S8192x2304.Idx) :
    ∃ t : Fin cfg0.N, (cfg0.win 3).flush t = true ∧ i ∈ ((cfg0.win 3).blk t).view.set := by
  have hi0 : (i 0).val < 8192 := (i 0).isLt
  have hi1 : (i 1).val < 2304 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, e5, e6⟩ := idx0 t
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2304 ≤ (i 1).val ∧ (i 1).val < win0_3.index t (1 : Fin 2) * 2304 + 2304
    omega

/-- THE ARRAY after the region: the projection of the arrays as the region finds them. -/
theorem final0_fun (c : Dev nD) :
    (dat0 (F := Ideal) V c).arrAt 3 cfg0.N = proj0 (V c main_v0) (V c main_v1) (V c main_v3) :=
  (dat0 (F := Ideal) V c).arrAt_eq_of_cover 3 (proj0 (V c main_v0) (V c main_v1) (V c main_v3))
    (fun t _ => flushed0_eq V c t) cover0

/-- The same, entry by entry: row r of x against column j of the transposed weight, plus the bias at j (the three
    arrays named as functions of their literal index types). -/
theorem final0 (c : Dev nD) (X : S8192x768.Idx → Elt Ideal .f32) (W : S768x2304.Idx → Elt Ideal .f32)
    (B : S2304.Idx → Elt Ideal .f32) (hX : X = V c main_v0) (hW : W = V c main_v1) (hB : B = V c main_v3)
    (r : Fin 8192) (j : Fin 2304) :
    (dat0 (F := Ideal) V c).arrAt 3 cfg0.N (ix2 r j) = (∑ k : Fin 768, X (ix2 r k) * W (ix2 k j)) + B (ix1 j) := by
  subst hX hW hB
  rw [final0_fun]
  rfl

end Cert.KernelIdeal.Val

end
-- ==== Proof.Val.Lin2Pay.lean ====
/-
  The output projection's output block, entry by entry, on the extended reals.

  The body loads its whole [1024, 768] row block o of attention outputs, the whole [768, 768] transposed weight w
  and the [768] bias b, and stores ONE [1024, 768] block: the matrix product o · w accumulated into the zero matrix,
  plus b laid as a row and repeated down the 1024 rows. On the extended reals the rounding of w to the narrow
  format is the identity, a reshape to the same shape is the identity, and a product into the zero accumulator is
  the plain sum over the contraction index. So entry (p, j) of the block is

      (∑ k, o (p, k) * w (k, j)) + b (j).
-/
import proofs.«152500_j40810779246812_2_alg».proof.Proof.KI.Outs
import proofs.«152500_j40810779246812_2_alg».proof.Proof.LibLayout
import proofs.«152500_j40810779246812_2_alg».proof.Proof.Val.LinBase
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Hand

/-- The product's left operand is read in the output entry's row. -/
theorem dot2_lhs_row (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl

/-- The product's right operand is read in the output entry's column. -/
theorem dot2_rhs_col (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The projection's arithmetic at entry (p, j): the row of o against the column of w, plus the bias at j. -/
theorem k2_pay1_apply (o : Vec Ideal S1024x768 .bf16) (w : Vec Ideal S768x768 .f32) (b : Vec Ideal S768 .f32)
    (p : Fin 1024) (j : Fin 768) :
    k2_pay1 (F := Ideal) o w b (ix2 p j) = (∑ k : Fin 768, o (ix2 p k) * w (ix2 k j)) + b (ix1 j) := by
  unfold k2_pay1
  rw [shapeCast_self, shapeCast_self]
  have hM := Cert.LibLayout.matmul_rows_cols_apply (φ₁ := .bf16) (φ₂ := .bf16) dot_S1024x768_S768x768_S1024x768_1_0_0_1_n_n rfl rfl rfl rfl dot2_lhs_row dot2_rhs_col none
    (o : FVec Ideal S1024x768 .bf16) (truncf .bf16 w bitsLt_bf16_f32) p j
  have hB := Cert.LibLayout.rowBias_apply (a := 1024) b shapeCasts_S768_S1x768 broadcasts_S1x768_S1024x768 p j
  exact congr (congrArg HAdd.hAdd hM) hB

/-- THE OUTPUT BLOCK of the output projection at entry (p, j), from the three input blocks. -/
theorem out2_3_apply (x0 : Vec Ideal S1024x768 .bf16) (x1 : Vec Ideal S768x768 .f32) (x2 : Vec Ideal S768 .f32)
    (p : Fin 1024) (j : Fin 768) :
    out2_3 (F := Ideal) x0 x1 x2 (ix2 p j) = (∑ k : Fin 768, x0 (ix2 p k) * x1 (ix2 k j)) + x2 (ix1 j) := by
  unfold out2_3
  rw [View.canon_unit_zero zero2]
  rw [View.ld_unit_zero (S := S1024x768) zero2, View.ld_unit_zero (S := S768x768) zero2, View.ld_unit_zero (S := S768) zero1]
  exact k2_pay1_apply x0 x1 x2 p j

end Cert.KernelIdeal.Val

end
-- ==== Proof.Val.Lin2Arr.lean ====
/-
  The output projection's result array after its region, as ONE function of the arrays the region finds.

  The region runs over 8 grid points. Point t reads rows 1024 t … 1024 t + 1023 of the [8192, 768] array of attention
  outputs, the whole [768, 768] transposed weight and the whole [768] bias, and writes back rows
  1024 t … 1024 t + 1023 of the [8192, 768] result: its block is the product of its row block with the weight, plus
  the bias row. A row of a matrix product depends on that row of the left operand only, so each written block is the
  matching block of the product of the WHOLE array with the weight plus the bias; and the 8 row blocks tile the 8192
  rows (row r lies in the block of point r / 1024). Hence the result array ends holding, at (r, j),

      (∑ k, o (r, k) * w (k, j)) + b (j).
-/
import proofs.«152500_j40810779246812_2_alg».proof.Proof.KI.Data
import proofs.«152500_j40810779246812_2_alg».proof.Proof.Val.Lin2Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The output projection of a whole [8192, 768] array X by the [768, 768] matrix W with the bias B: entry (r, j) is
    the row r of X against the column j of W, plus B (j). -/
def proj2 (X : S8192x768.Idx → Elt Ideal .bf16) (W : S768x768.Idx → Elt Ideal .f32) (B : S768.Idx → Elt Ideal .f32) :
    S8192x768.Idx → Elt Ideal .f32 := fun i =>
  (∑ k : Fin 768, X (ix2 (⟨(i 0).val, idx2_lt0 i⟩ : Fin 8192) k) * W (ix2 k (⟨(i 1).val, idx2_lt1 i⟩ : Fin 768)))
    + B (ix1 (⟨(i 1).val, idx2_lt1 i⟩ : Fin 768))

theorem proj2_apply (X : S8192x768.Idx → Elt Ideal .bf16) (W : S768x768.Idx → Elt Ideal .f32) (B : S768.Idx → Elt Ideal .f32)
    (r : Fin 8192) (j : Fin 768) :
    proj2 X W B (ix2 r j) = (∑ k : Fin 768, X (ix2 r k) * W (ix2 k j)) + B (ix1 j) := rfl

/-- The index maps over the grid: at point t the row-block windows (the attention outputs and the result) sit at
    block row t, the weight and the bias at their only block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- ONE POINT'S BLOCK is a block of the whole-array projection: if the point's first block is rows
    1024 t … 1024 t + 1023 of X, its weight block is W and its bias block is B, then entry (p, q) of its output block
    is entry (1024 t + p, q) of the projection of X. -/
theorem block2_eq (X : S8192x768.Idx → Elt Ideal .bf16) (W : S768x768.Idx → Elt Ideal .f32) (B : S768.Idx → Elt Ideal .f32)
    (x0 : Vec Ideal S1024x768 .bf16) (x1 : Vec Ideal S768x768 .f32) (x2 : Vec Ideal S768 .f32) (tv : Nat)
    (h0 : ∀ (p : Fin 1024) (k : Fin 768) (r : Fin 8192), r.val = tv * 1024 + p.val → x0 (ix2 p k) = X (ix2 r k))
    (h1 : ∀ (k : Fin 768) (j : Fin 768), x1 (ix2 k j) = W (ix2 k j))
    (h2 : ∀ j : Fin 768, x2 (ix1 j) = B (ix1 j))
    (p : Fin 1024) (q : Fin 768) (i : S8192x768.Idx) (hi0 : (i 0).val = tv * 1024 + p.val) (hi1 : (i 1).val = q.val) :
    out2_3 (F := Ideal) x0 x1 x2 (ix2 p q) = proj2 X W B i := by
  refine (out2_3_apply x0 x1 x2 p q).trans ?_
  have hq : (⟨(i 1).val, idx2_lt1 i⟩ : Fin 768) = q := Fin.ext hi1
  unfold proj2
  rw [hq, h2 q]
  refine congrArg (· + B (ix1 q)) (Finset.sum_congr rfl fun k _ => ?_)
  rw [h0 p k ⟨(i 0).val, idx2_lt0 i⟩ hi0, h1 k q]

/-- The attention-output window's block at point t is rows 1024 t … 1024 t + 1023 of the array. -/
theorem iblk2_0_apply (c : Dev nD) (t : Fin cfg2.N) (p : Fin 1024) (k : Fin 768) (r : Fin 8192)
    (hr : r.val = t.val * 1024 + p.val) :
    (iblk2 V c 0 t : Vec Ideal S1024x768 .bf16) (ix2 p k) = (V c main_v5 : S8192x768.Idx → Elt Ideal .bf16) (ix2 r k) := by
  obtain ⟨e0, e1, -⟩ := idx2 t
  unfold iblk2
  rw [View.read_apply]
  show (V c main_v5 : S8192x768.Idx → Elt Ideal .bf16) _ = _
  refine congrArg (V c main_v5 : S8192x768.Idx → Elt Ideal .bf16) (funext fun a => Fin.ext ?_)
  match a with
  | ⟨0, _⟩ => show win2_0.index t (0 : Fin 2) * 1024 + 1 * p.val = r.val; omega
  | ⟨1, _⟩ => show win2_0.index t (1 : Fin 2) * 768 + 1 * k.val = k.val; omega

/-- The weight window's only block is the whole array. -/
theorem iblk2_1_apply (c : Dev nD) (t : Fin cfg2.N) (k : Fin 768) (j : Fin 768) :
    (iblk2 V c 1 t : Vec Ideal S768x768 .f32) (ix2 k j) = (V c main_v2 : S768x768.Idx → Elt Ideal .f32) (ix2 k j) := by
  obtain ⟨-, -, e2, e3, -⟩ := idx2 t
  unfold iblk2
  rw [View.read_apply]
  show (V c main_v2 : S768x768.Idx → Elt Ideal .f32) _ = _
  refine congrArg (V c main_v2 : S768x768.Idx → Elt Ideal .f32) (funext fun a => Fin.ext ?_)
  match a with
  | ⟨0, _⟩ => show win2_1.index t (0 : Fin 2) * 768 + 1 * k.val = k.val; omega
  | ⟨1, _⟩ => show win2_1.index t (1 : Fin 2) * 768 + 1 * j.val = j.val; omega

/-- The bias window's only block is the whole vector. -/
theorem iblk2_2_apply (c : Dev nD) (t : Fin cfg2.N) (j : Fin 768) :
    (iblk2 V c 2 t : Vec Ideal S768 .f32) (ix1 j) = (V c main_arg3 : S768.Idx → Elt Ideal .f32) (ix1 j) := by
  obtain ⟨-, -, -, -, e4, -⟩ := idx2 t
  unfold iblk2
  rw [View.read_apply]
  show (V c main_arg3 : S768.Idx → Elt Ideal .f32) _ = _
  refine congrArg (V c main_arg3 : S768.Idx → Elt Ideal .f32) (funext fun a => Fin.ext ?_)
  match a with
  | ⟨0, _⟩ => show win2_2.index t (0 : Fin 1) * 768 + 1 * j.val = j.val; omega

/-- WHAT POINT t WRITES BACK is block t of the projection of the arrays as the region finds them. -/
theorem flushed2_eq (c : Dev nD) (t : Fin cfg2.N) :
    (dat2 (F := Ideal) V c).flushed 3 t
      = ((cfg2.win 3).blk t).view.read (Elt Ideal) (proj2 (V c main_v5) (V c main_v2) (V c main_arg3)) := by
  show (cfg2.win 3).cut (grid2.coords t) ((dat2 (F := Ideal) V c).after 3 t) = _
  rw [after2_3]
  obtain ⟨-, -, -, -, -, e5, e6⟩ := idx2 t
  funext y
  obtain ⟨p, q, rfl⟩ : ∃ (p : Fin 1024) (q : Fin 768), y = ix2 p q := ⟨y 0, y 1, eq_ix2 y⟩
  rw [View.read_apply]
  refine block2_eq (V c main_v5) (V c main_v2) (V c main_arg3) (iblk2 V c 0 t) (iblk2 V c 1 t) (iblk2 V c 2 t) t.val
    (iblk2_0_apply V c t) (iblk2_1_apply V c t) (iblk2_2_apply V c t) p q _ ?_ ?_
  · show win2_3.index t (0 : Fin 2) * 1024 + 1 * p.val = t.val * 1024 + p.val; omega
  · show win2_3.index t (1 : Fin 2) * 768 + 1 * q.val = q.val; omega

/-- An index of the array is in point t's block iff each coordinate is in the block's range on its axis. -/
theorem mem_blk2 (t : Fin cfg2.N) (i : S8192x768.Idx) :
    i ∈ ((cfg2.win 3).blk t).view.set ↔ ∀ a : Fin 2, win2_3.index t a * S1024x768.size a ≤ (i a).val
      ∧ (i a).val < win2_3.index t a * S1024x768.size a + S1024x768.size a := by
  show i ∈ ((View.whole main_v6).slice (win2_3.rect t)).set ↔ _
  rw [View.set_slice_whole, Rect.mem_set_unit]
  exact Iff.rfl

/-- THE BLOCKS COVER THE ARRAY: row r lies in the block of point r / 1024, and every block spans all 768 columns. -/
theorem cover2 (i : S8192x768.Idx) :
    ∃ t : Fin cfg2.N, (cfg2.win 3).flush t = true ∧ i ∈ ((cfg2.win 3).blk t).view.set := by
  have hi0 : (i 0).val < 8192 := (i 0).isLt
  have hi1 : (i 1).val < 768 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, e5, e6⟩ := idx2 t
  refine ⟨t, flush2_3 t, ?_⟩
  rw [mem_blk2]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 768 ≤ (i 1).val ∧ (i 1).val < win2_3.index t (1 : Fin 2) * 768 + 768
    omega

/-- THE ARRAY after the region: the projection of the arrays as the region finds them. -/
theorem final2_fun (c : Dev nD) :
    (dat2 (F := Ideal) V c).arrAt 3 cfg2.N = proj2 (V c main_v5) (V c main_v2) (V c main_arg3) :=
  (dat2 (F := Ideal) V c).arrAt_eq_of_cover 3 (proj2 (V c main_v5) (V c main_v2) (V c main_arg3))
    (fun t _ => flushed2_eq V c t) cover2

/-- The same, entry by entry: row r of the attention outputs against column j of the transposed weight, plus the bias
    at j (the three arrays named as functions of their literal index types). -/
theorem final2 (c : Dev nD) (X : S8192x768.Idx → Elt Ideal .bf16) (W : S768x768.Idx → Elt Ideal .f32)
    (B : S768.Idx → Elt Ideal .f32) (hX : X = V c main_v5) (hW : W = V c main_v2) (hB : B = V c main_arg3)
    (r : Fin 8192) (j : Fin 768) :
    (dat2 (F := Ideal) V c).arrAt 3 cfg2.N (ix2 r j) = (∑ k : Fin 768, X (ix2 r k) * W (ix2 k j)) + B (ix1 j) := by
  subst hX hW hB
  rw [final2_fun]
  rfl

end Cert.KernelIdeal.Val

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.Val.AttnHead.lean ====
/-
  One attention head on the extended reals, read entry by entry.

  For slices `a`, `b`, `v` of shape [1024, 64] holding a head's queries, keys and values: the score of query `q`
  against key `k` is the product of row `q` of `a` with row `k` of `b`, scaled by one eighth; a row's greatest
  score is the fold of `max` over the keys from `⊥`; the weights of a row are the exponentials of its scores less
  that greatest score, each divided by the sum of the row's exponentials; the head's output at `(q, d)` is the sum
  over the keys of the weight times entry `(k, d)` of `v`.

  The body spells this computation twice: once as a single payload, and once cut into three — the scaled scores,
  their row maxima laid as a column, and the rest.  Both read as the formula above.  Nothing here needs a finite
  input: the formats' roundings are the identity, a sum from zero is the sum, and the fold of `max` starts at `⊥`.
-/
import proofs.«152500_j40810779246812_2_alg».proof.Proof.Gen.KernelIdeal.Skeleton
import proofs.«152500_j40810779246812_2_alg».proof.Proof.Spec
import proofs.«152500_j40810779246812_2_alg».proof.Proof.LibLayout
import proofs.«152500_j40810779246812_2_alg».proof.Proof.LibConcat3

noncomputable section

namespace Cert.KernelIdeal.Val

open Idealize.ShloMosaic Idealize.ShloMosaic.TcCoe Idealize.ShloMosaic.ValueIdx
open Cert.KernelIdeal Cert.KernelIdeal.Gen
open scoped BigOperators

/-! ## The head's formula -/

/-- The scaled score of query `q` against key `k`. -/
def hScore (a b : FVec Ideal S1024x64 .bf16) (q k : Fin 1024) : EReal :=
  (∑ e : Fin 64, a (ix2 q e) * b (ix2 k e)) * Cert.Spec.eighth

/-- The greatest score in query `q`'s row: the fold of `max` over the keys from `⊥`. -/
def hMax (a b : FVec Ideal S1024x64 .bf16) (q : Fin 1024) : EReal :=
  (Finset.univ : Finset (Fin 1024)).fold max ⊥ (fun k => hScore a b q k)

/-- The exponential of a score less its row's greatest score. -/
def hExp (a b : FVec Ideal S1024x64 .bf16) (q k : Fin 1024) : EReal :=
  Ideal.exp (hScore a b q k - hMax a b q)

/-- The head's output for query `q`, feature `d`: the weights of the row against column `d` of the values. -/
def hOut (a b v : FVec Ideal S1024x64 .bf16) (q : Fin 1024) (d : Fin 64) : EReal :=
  ∑ k : Fin 1024, Ideal.div (hExp a b q k) (∑ u : Fin 1024, hExp a b q u) * v (ix2 k d)

/-! ## The three parts of the cut spelling -/

/-- The scaled scores: the queries times the transposed keys, times one eighth. -/
theorem pay4_apply (a b : FVec Ideal S1024x64 .bf16) (q k : Fin 1024) :
    k1_pay4 (F := Ideal) a b (ix2 q k) = hScore a b q k := by
  unfold k1_pay4 hScore
  refine congrArg (· * Cert.Spec.eighth) ?_
  refine (Cert.LibLayout.matmul_rows_cols_apply dot_S1024x64_S64x1024_S1024x1024_1_0_0_1_n_n rfl rfl rfl rfl
    (fun _ _ => rfl) (fun _ _ => rfl) none _ _ q k).trans ?_
  refine Finset.sum_congr rfl fun e _ => ?_
  rw [Cert.LibConcat3.transpose_10_apply, shapeCast_self, shapeCast_self]

/-- The row maxima, laid as a column. -/
theorem pay5_apply (a b : FVec Ideal S1024x64 .bf16) (q : Fin 1024) (u : Fin 1) :
    k1_pay5 (F := Ideal) a b (ix2 q u) = hMax a b q := by
  unfold k1_pay5 hMax
  refine (Cert.LibLayout.shapeCast_a_a1_apply _ _ q u).trans ?_
  refine (Cert.LibLayout.max_rows_apply _ _ _ _ q).trans ?_
  rw [Cert.Spec.ofBits_negInf]
  exact congrArg (Finset.fold max ⊥ · Finset.univ) (funext fun k => pay4_apply a b q k)

/-- The rest, for ANY matrix of scores `Lm` and column `Mx`: subtract the column from every row, exponentiate,
    divide each row by its sum, and multiply by the values. -/
theorem pay1_apply (v : FVec Ideal S1024x64 .bf16) (Lm : FVec Ideal S1024x1024 .f32) (Mx : FVec Ideal S1024x1 .f32)
    (q : Fin 1024) (d : Fin 64) :
    k1_pay1 (F := Ideal) v Lm Mx (ix2 q d)
      = ∑ k : Fin 1024, Ideal.div (Ideal.exp (Lm (ix2 q k) - Mx (ix2 q (0 : Fin 1))))
          (∑ u : Fin 1024, Ideal.exp (Lm (ix2 q u) - Mx (ix2 q (0 : Fin 1)))) * v (ix2 k d) := by
  unfold k1_pay1
  have hE : ∀ t : Fin 1024,
      exp (subf Lm (broadcastTo S1024x1024 Mx broadcasts_S1024x1_S1024x1024)) (ix2 q t)
        = Ideal.exp (Lm (ix2 q t) - Mx (ix2 q (0 : Fin 1))) := fun t => by
    show Ideal.exp (Lm (ix2 q t) - broadcastTo S1024x1024 Mx broadcasts_S1024x1_S1024x1024 (ix2 q t)) = _
    rw [Cert.LibLayout.broadcastTo_a1_ab_apply]
  refine (Cert.LibLayout.matmul_rows_cols_apply dot_S1024x1024_S1024x64_S1024x64_1_0_0_1_n_n rfl rfl rfl rfl
    (fun _ _ => rfl) (fun _ _ => rfl) none _ _ q d).trans ?_
  refine Finset.sum_congr rfl fun k _ => congrArg (· * v (ix2 k d)) ?_
  show Ideal.div (exp (subf Lm (broadcastTo S1024x1024 Mx broadcasts_S1024x1_S1024x1024)) (ix2 q k))
      (broadcastTo S1024x1024 (shapeCast S1024x1 (multiReduction .add [1] S1024
        (exp (subf Lm (broadcastTo S1024x1024 Mx broadcasts_S1024x1_S1024x1024))) 0x00000000#32
        reduces_S1024x1024_S1024 (.inl rfl) rfl) shapeCasts_S1024_S1024x1) broadcasts_S1024x1_S1024x1024 (ix2 q k)) = _
  rw [Cert.LibLayout.broadcastTo_a1_ab_apply, Cert.LibLayout.shapeCast_a_a1_apply, Cert.LibLayout.sum_rows_apply, hE]
  simp only [hE]

/-- The values pass through a cast to their own shape. -/
theorem pay3_apply (v : FVec Ideal S1024x64 .bf16) (k : Fin 1024) (d : Fin 64) :
    k1_pay3 (F := Ideal) v (ix2 k d) = v (ix2 k d) := by
  unfold k1_pay3
  rw [shapeCast_self]

/-! ## Both spellings are the head's formula -/

/-- The cut spelling: the rest applied to the values, the scaled scores and their row maxima. -/
theorem head_cut (a b v : FVec Ideal S1024x64 .bf16) (q : Fin 1024) (d : Fin 64) :
    k1_pay1 (F := Ideal) (k1_pay3 v) (k1_pay4 a b) (k1_pay5 a b) (ix2 q d) = hOut a b v q d := by
  refine (pay1_apply _ _ _ q d).trans ?_
  unfold hOut hExp
  simp only [pay4_apply, pay5_apply, pay3_apply]

/-- The single payload is the cut spelling put back together. -/
theorem pay2_eq_cut (a b v : FVec Ideal S1024x64 .bf16) :
    k1_pay2 (F := Ideal) a b v = k1_pay1 (k1_pay3 v) (k1_pay4 a b) (k1_pay5 a b) := rfl

/-- The single payload. -/
theorem head_whole (a b v : FVec Ideal S1024x64 .bf16) (q : Fin 1024) (d : Fin 64) :
    k1_pay2 (F := Ideal) a b v (ix2 q d) = hOut a b v q d :=
  (congrFun (pay2_eq_cut a b v) (ix2 q d)).trans (head_cut a b v q d)

end Cert.KernelIdeal.Val

end
-- ==== Proof.Val.AttnBlock.lean ====
/-
  The attention body's output block, read entry by entry on the extended reals.

  The body stores the [1024, 128] output block in two pieces: its right 64 columns (stored last) and its left 64
  columns.  Each piece is one head computed from the matching 64 columns of the query, key and value blocks.  So
  entry `(q, s · 64 + d)` of the output block, for a half `s` and a feature `d`, is the head's output at
  `(q, d)` on columns `s · 64 … s · 64 + 63` of the three input blocks.
-/
import proofs.«152500_j40810779246812_2_alg».proof.Proof.KI.Outs
import proofs.«152500_j40810779246812_2_alg».proof.Proof.Val.AttnHead

noncomputable section

namespace Cert.KernelIdeal.Val

open Idealize.ShloMosaic Idealize.ShloMosaic.TcCoe Idealize.ShloMosaic.ValueIdx
open Cert.KernelIdeal Cert.KernelIdeal.Gen Cert.KernelIdeal.Hand
open scoped BigOperators

/-- Columns `s · 64 … s · 64 + 63` of a [1024, 128] block, as a [1024, 64] slice. -/
def colsOf (x : Vec Ideal S1024x128 .bf16) (s : Fin 2) : FVec Ideal S1024x64 .bf16 :=
  fun j => x (ix2 (⟨(j 0).val, idx2_lt0 j⟩ : Fin 1024)
    (⟨s.val * 64 + (j 1).val, by have := idx2_lt1 j; have := s.isLt; omega⟩ : Fin 128))

theorem colsOf_apply (x : Vec Ideal S1024x128 .bf16) (s : Fin 2) (q : Fin 1024) (e : Fin 64) :
    colsOf x s (ix2 q e) = x (ix2 q (⟨s.val * 64 + e.val, by have := e.isLt; have := s.isLt; omega⟩ : Fin 128)) := rfl

/-! ## A load through either half's rectangle is that slice -/

theorem ld_L (x : Vec Ideal S1024x128 .bf16) :
    (View.ld (Val := Elt Ideal) (e' := EltTy.bf16) x r1_L : FVec Ideal S1024x64 .bf16) = colsOf x 0 := by
  funext j
  show x (r1_L.emb j) = _
  refine congrArg x (funext fun a => Fin.ext ?_)
  match a with
  | ⟨0, _⟩ => show 0 + 1 * (j 0).val = (j 0).val; omega
  | ⟨1, _⟩ => show 0 + 1 * (j 1).val = 0 * 64 + (j 1).val; omega

theorem ld_R (x : Vec Ideal S1024x128 .bf16) :
    (View.ld (Val := Elt Ideal) (e' := EltTy.bf16) x r1_R : FVec Ideal S1024x64 .bf16) = colsOf x 1 := by
  funext j
  show x (r1_R.emb j) = _
  refine congrArg x (funext fun a => Fin.ext ?_)
  match a with
  | ⟨0, _⟩ => show 0 + 1 * (j 0).val = (j 0).val; omega
  | ⟨1, _⟩ => show 64 + 1 * (j 1).val = 1 * 64 + (j 1).val; omega

/-! ## Where each half's entries sit in the block -/

theorem emb_L (q : Fin 1024) (d : Fin 64) :
    r1_L.emb (ix2 q d) = ix2 q (⟨0 * 64 + d.val, by have := d.isLt; omega⟩ : Fin 128) := by
  funext a; refine Fin.ext ?_
  match a with
  | ⟨0, _⟩ => show 0 + 1 * q.val = q.val; omega
  | ⟨1, _⟩ => show 0 + 1 * d.val = 0 * 64 + d.val; omega

theorem emb_R (q : Fin 1024) (d : Fin 64) :
    r1_R.emb (ix2 q d) = ix2 q (⟨1 * 64 + d.val, by have := d.isLt; omega⟩ : Fin 128) := by
  funext a; refine Fin.ext ?_
  match a with
  | ⟨0, _⟩ => show 0 + 1 * q.val = q.val; omega
  | ⟨1, _⟩ => show 64 + 1 * d.val = 1 * 64 + d.val; omega

/-- An entry of the left half is not under the right half's store. -/
theorem emb_L_not_mem_R (q : Fin 1024) (d : Fin 64) : r1_L.emb (ix2 q d) ∉ r1_R.set := by
  rw [Rect.mem_set_unit]
  intro h
  have h1 := (h (1 : Fin 2)).1
  have e : ((r1_L.emb (ix2 q d)) (1 : Fin 2) : ℕ) = 0 + 1 * d.val := rfl
  have hd := d.isLt
  have : (64 : ℕ) ≤ ((r1_L.emb (ix2 q d)) (1 : Fin 2) : ℕ) := h1
  omega

/-! ## Two stores, the right half's last: what each entry reads -/

/-- Under the later store (the right half) an entry reads that store's payload. -/
theorem canon_right (pR pL : Vec Ideal S1024x64 .bf16) (q : Fin 1024) (d : Fin 64) :
    View.canon ([⟨r1_R, pR⟩, ⟨r1_L, pL⟩] : List (View.Piece (Elt Ideal) S1024x128 .bf16))
        (ix2 q (⟨1 * 64 + d.val, by have := d.isLt; omega⟩ : Fin 128)) = pR (ix2 q d) := by
  rw [← emb_R q d]
  exact View.canon_cons_emb r1_R pR [⟨r1_L, pL⟩] (ix2 q d)

/-- Off it (the left half) an entry reads the earlier store's payload. -/
theorem canon_left (pR pL : Vec Ideal S1024x64 .bf16) (q : Fin 1024) (d : Fin 64) :
    View.canon ([⟨r1_R, pR⟩, ⟨r1_L, pL⟩] : List (View.Piece (Elt Ideal) S1024x128 .bf16))
        (ix2 q (⟨0 * 64 + d.val, by have := d.isLt; omega⟩ : Fin 128)) = pL (ix2 q d) := by
  rw [← emb_L q d]
  refine (View.canon_cons_of_not_mem (⟨r1_R, pR⟩ : View.Piece (Elt Ideal) S1024x128 .bf16) [⟨r1_L, pL⟩]
    (emb_L_not_mem_R q d)).trans ?_
  exact View.canon_cons_emb r1_L pL [] (ix2 q d)

/-! ## The block -/

/-- The right half: the later store's payload, the cut spelling of the head on the right columns. -/
theorem out1_3_right (x0 x1 x2 : Vec Ideal S1024x128 .bf16) (q : Fin 1024) (d : Fin 64) :
    out1_3 (F := Ideal) x0 x1 x2 (ix2 q (⟨1 * 64 + d.val, by have := d.isLt; omega⟩ : Fin 128))
      = hOut (colsOf x0 1) (colsOf x1 1) (colsOf x2 1) q d := by
  unfold out1_3
  refine (canon_right _ _ q d).trans ?_
  refine (head_cut _ _ _ q d).trans ?_
  rw [ld_R x0, ld_R x1, ld_R x2]

/-- The left half: the earlier store's payload, the single spelling of the head on the left columns. -/
theorem out1_3_left (x0 x1 x2 : Vec Ideal S1024x128 .bf16) (q : Fin 1024) (d : Fin 64) :
    out1_3 (F := Ideal) x0 x1 x2 (ix2 q (⟨0 * 64 + d.val, by have := d.isLt; omega⟩ : Fin 128))
      = hOut (colsOf x0 0) (colsOf x1 0) (colsOf x2 0) q d := by
  unfold out1_3
  refine (canon_left _ _ q d).trans ?_
  refine (head_whole _ _ _ q d).trans ?_
  rw [ld_L x0, ld_L x1, ld_L x2]

/-- THE OUTPUT BLOCK at `(q, s · 64 + d)`: the head on columns `s · 64 …` of the query, key and value blocks. -/
theorem out1_3_apply (x0 x1 x2 : Vec Ideal S1024x128 .bf16) (q : Fin 1024) (s : Fin 2) (d : Fin 64) :
    out1_3 (F := Ideal) x0 x1 x2
        (ix2 q (⟨s.val * 64 + d.val, by have := d.isLt; have := s.isLt; omega⟩ : Fin 128))
      = hOut (colsOf x0 s) (colsOf x1 s) (colsOf x2 s) q d := by
  match s with
  | ⟨0, _⟩ => exact out1_3_left x0 x1 x2 q d
  | ⟨1, _⟩ => exact out1_3_right x0 x1 x2 q d

end Cert.KernelIdeal.Val

end
-- ==== Proof.Val.AttnSpec.lean ====
/-
  The head's formula is the specification's, once its three slices are columns of one fused array.

  If the query slice is the part-0 columns of head `h` of a fused array `Q` on sequence `b`, the key slice the
  part-1 columns and the value slice the part-2 columns, then the score, the row maximum, the exponentials, the row
  sum, the weights and the weighted sum of the head are, term by term, the specification's at `(b, h)`.
-/
import proofs.«152500_j40810779246812_2_alg».proof.Proof.Val.AttnHead

noncomputable section

namespace Cert.KernelIdeal.Val

open Idealize.ShloMosaic Idealize.ShloMosaic.ValueIdx
open Cert.KernelIdeal
open scoped BigOperators

theorem hOut_eq_ctx (Q : Fin 8 → Fin 1024 → Fin 2304 → EReal) (b : Fin 8) (h : Fin 12)
    (a k v : FVec Ideal S1024x64 .bf16)
    (ha : ∀ (n : Fin 1024) (e : Fin 64), a (ix2 n e) = Q b n (Cert.Spec.col 0 h e))
    (hk : ∀ (n : Fin 1024) (e : Fin 64), k (ix2 n e) = Q b n (Cert.Spec.col 1 h e))
    (hv : ∀ (n : Fin 1024) (e : Fin 64), v (ix2 n e) = Q b n (Cert.Spec.col 2 h e))
    (n : Fin 1024) (d : Fin 64) : hOut a k v n d = Cert.Spec.ctx Q b h n d := by
  have hs : ∀ q u : Fin 1024, hScore a k q u = Cert.Spec.score Q b h q u := fun q u => by
    unfold hScore Cert.Spec.score
    simp only [ha, hk]
  have hm : ∀ q : Fin 1024, hMax a k q = Cert.Spec.rowmax Q b h q := fun q => by
    unfold hMax Cert.Spec.rowmax
    simp only [hs]
  have hp : ∀ q u : Fin 1024, hExp a k q u = Cert.Spec.p Q b h q u := fun q u => by
    unfold hExp Cert.Spec.p
    rw [hs, hm]
  unfold hOut Cert.Spec.ctx Cert.Spec.attn Cert.Spec.rowsum
  simp only [hp, hv]

end Cert.KernelIdeal.Val

end
-- ==== Proof.Val.AttnArrSpec.lean ====
/-
  The attention region's output array as ONE function of the fused array it reads, and one grid point's block of it.

  The fused array `X` has 8192 rows (sequence `b`, token `n`: row `b · 1024 + n`) and 2304 columns; the output has
  the same rows and 768 columns (head `h`, feature `d`: column `h · 64 + d`).  Entry `(b · 1024 + n, h · 64 + d)` of the
  output is the specification's head output `ctx` of `X` at `(b, h, n, d)`.

  A grid point `(bq, hq)` computes the [1024, 128] block `(bq, hq)` of the output from the [1024, 128] blocks
  `(bq, hq)`, `(bq, hq + 6)`, `(bq, hq + 12)` of `X`: the half `s` of that block is head `2 · hq + s`, whose query, key
  and value columns `s · 768 + (2 · hq + s) · 64 + e` are the columns `s · 64 + e` of those three blocks.
-/
import proofs.«152500_j40810779246812_2_alg».proof.Proof.Val.AttnBlock
import proofs.«152500_j40810779246812_2_alg».proof.Proof.Val.AttnSpec

noncomputable section

namespace Cert.KernelIdeal.Val

open Idealize.ShloMosaic Idealize.ShloMosaic.TcCoe Idealize.ShloMosaic.ValueIdx
open Cert.KernelIdeal Cert.KernelIdeal.Gen Cert.KernelIdeal.Hand
open scoped BigOperators

/-- The fused array by sequence, token and column. -/
def Qof (X : S8192x2304.Idx → EReal) : Fin 8 → Fin 1024 → Fin 2304 → EReal :=
  fun b n j => X (ix2 (⟨b.val * 1024 + n.val, by have := b.isLt; have := n.isLt; omega⟩ : Fin 8192) j)

theorem Qof_apply (X : S8192x2304.Idx → EReal) (b : Fin 8) (n : Fin 1024) (j : Fin 2304) :
    Qof X b n j = X (ix2 (⟨b.val * 1024 + n.val, by have := b.isLt; have := n.isLt; omega⟩ : Fin 8192) j) := rfl

/-- The output array: at row `r`, column `c` the head output of sequence `r / 1024`, head `c / 64`, token
    `r % 1024`, feature `c % 64`. -/
def attnArr (X : S8192x2304.Idx → EReal) : S8192x768.Idx → EReal := fun i =>
  Cert.Spec.ctx (Qof X)
    (⟨(i 0).val / 1024, by have := idx2_lt0 i; omega⟩ : Fin 8)
    (⟨(i 1).val / 64, by have := idx2_lt1 i; omega⟩ : Fin 12)
    (⟨(i 0).val % 1024, by omega⟩ : Fin 1024)
    (⟨(i 1).val % 64, by omega⟩ : Fin 64)

/-- The output array by sequence, head, token and feature. -/
theorem attnArr_apply (X : S8192x2304.Idx → EReal) (b : Fin 8) (h : Fin 12) (n : Fin 1024) (d : Fin 64) :
    attnArr X (ix2 (⟨b.val * 1024 + n.val, by have := b.isLt; have := n.isLt; omega⟩ : Fin 8192)
        (⟨h.val * 64 + d.val, by have := h.isLt; have := d.isLt; omega⟩ : Fin 768))
      = Cert.Spec.ctx (Qof X) b h n d := by
  have hb := b.isLt; have hh := h.isLt; have hn := n.isLt; have hd := d.isLt
  have e1 : (⟨(b.val * 1024 + n.val) / 1024, by omega⟩ : Fin 8) = b := Fin.ext (by show (b.val * 1024 + n.val) / 1024 = b.val; omega)
  have e2 : (⟨(h.val * 64 + d.val) / 64, by omega⟩ : Fin 12) = h := Fin.ext (by show (h.val * 64 + d.val) / 64 = h.val; omega)
  have e3 : (⟨(b.val * 1024 + n.val) % 1024, by omega⟩ : Fin 1024) = n := Fin.ext (by show (b.val * 1024 + n.val) % 1024 = n.val; omega)
  have e4 : (⟨(h.val * 64 + d.val) % 64, by omega⟩ : Fin 64) = d := Fin.ext (by show (h.val * 64 + d.val) % 64 = d.val; omega)
  show Cert.Spec.ctx (Qof X) (⟨(b.val * 1024 + n.val) / 1024, by omega⟩ : Fin 8) (⟨(h.val * 64 + d.val) / 64, by omega⟩ : Fin 12)
    (⟨(b.val * 1024 + n.val) % 1024, by omega⟩ : Fin 1024) (⟨(h.val * 64 + d.val) % 64, by omega⟩ : Fin 64) = _
  rw [e1, e2, e3, e4]

/-- A column of a [1024, 128] block is a half `s` and a feature `d` inside it. -/
theorem split_col (cc : Fin 128) : ∃ (s : Fin 2) (d : Fin 64),
    cc = (⟨s.val * 64 + d.val, by have := s.isLt; have := d.isLt; omega⟩ : Fin 128) :=
  ⟨⟨cc.val / 64, by have := cc.isLt; omega⟩, ⟨cc.val % 64, by omega⟩,
    Fin.ext (by show cc.val = cc.val / 64 * 64 + cc.val % 64; omega)⟩

/-- ONE GRID POINT.  If `x0`, `x1`, `x2` are the blocks `(bq, hq)`, `(bq, hq + 6)`, `(bq, hq + 12)` of `X`, the body's
    output block is block `(bq, hq)` of the output array: entry `y` of the one is entry `i` of the other whenever
    `i` is `y` moved by the block's offsets. -/
theorem block_eq (X : S8192x2304.Idx → EReal) (x0 x1 x2 : Vec Ideal S1024x128 .bf16) (bq hq : ℕ) (hbq : bq < 8) (hhq : hq < 6)
    (h0 : ∀ (x : S1024x128.Idx) (k : S8192x2304.Idx),
      (k 0).val = bq * 1024 + (x 0).val → (k 1).val = hq * 128 + (x 1).val → x0 x = X k)
    (h1 : ∀ (x : S1024x128.Idx) (k : S8192x2304.Idx),
      (k 0).val = bq * 1024 + (x 0).val → (k 1).val = (hq + 6) * 128 + (x 1).val → x1 x = X k)
    (h2 : ∀ (x : S1024x128.Idx) (k : S8192x2304.Idx),
      (k 0).val = bq * 1024 + (x 0).val → (k 1).val = (hq + 12) * 128 + (x 1).val → x2 x = X k)
    (y : S1024x128.Idx) (i : S8192x768.Idx)
    (hi0 : (i 0).val = bq * 1024 + (y 0).val) (hi1 : (i 1).val = hq * 128 + (y 1).val) :
    out1_3 (F := Ideal) x0 x1 x2 y = attnArr X i := by
  obtain ⟨q, cc, rfl⟩ : ∃ (q : Fin 1024) (cc : Fin 128), y = ix2 q cc := ⟨y 0, y 1, eq_ix2 y⟩
  obtain ⟨s, d, rfl⟩ := split_col cc
  have hs := s.isLt; have hd := d.isLt; have hq' := q.isLt
  have hi0' : (i 0).val = bq * 1024 + q.val := hi0
  have hi1' : (i 1).val = hq * 128 + (s.val * 64 + d.val) := hi1
  -- the output index by sequence, head, token, feature
  have hi : i = ix2 (⟨(⟨bq, hbq⟩ : Fin 8).val * 1024 + q.val, by show bq * 1024 + q.val < 8192; omega⟩ : Fin 8192)
      (⟨(⟨2 * hq + s.val, by omega⟩ : Fin 12).val * 64 + d.val, by show (2 * hq + s.val) * 64 + d.val < 768; omega⟩ : Fin 768) := by
    funext a; refine Fin.ext ?_
    match a with
    | ⟨0, _⟩ => show (i 0).val = bq * 1024 + q.val; exact hi0'
    | ⟨1, _⟩ => show (i 1).val = (2 * hq + s.val) * 64 + d.val; rw [hi1']; omega
  rw [hi, attnArr_apply, out1_3_apply x0 x1 x2 q s d]
  refine hOut_eq_ctx (Qof X) ⟨bq, hbq⟩ ⟨2 * hq + s.val, by omega⟩ (colsOf x0 s) (colsOf x1 s) (colsOf x2 s) ?_ ?_ ?_ q d
  · intro n e
    have he := e.isLt
    rw [colsOf_apply, Qof_apply]
    refine h0 _ _ rfl ?_
    show 0 * 768 + (2 * hq + s.val) * 64 + e.val = hq * 128 + (s.val * 64 + e.val)
    omega
  · intro n e
    have he := e.isLt
    rw [colsOf_apply, Qof_apply]
    refine h1 _ _ rfl ?_
    show 1 * 768 + (2 * hq + s.val) * 64 + e.val = (hq + 6) * 128 + (s.val * 64 + e.val)
    omega
  · intro n e
    have he := e.isLt
    rw [colsOf_apply, Qof_apply]
    refine h2 _ _ rfl ?_
    show 2 * 768 + (2 * hq + s.val) * 64 + e.val = (hq + 12) * 128 + (s.val * 64 + e.val)
    omega

end Cert.KernelIdeal.Val

end
-- ==== Proof.Val.AttnArray.lean ====
/-
  The attention region's output array after its pipeline: ONE function of the fused array the region reads.

  The grid is 8 × 6; point `t` has block coordinates `(bq, hq)` (sequence, pair of heads).  Its query, key and value
  windows read the [1024, 128] blocks `(bq, hq)`, `(bq, hq + 6)`, `(bq, hq + 12)` of the fused [8192, 2304] array —
  the relations between the four index maps are decided once over the 48 points —, and it writes back block
  `(bq, hq)` of the [8192, 768] output.  What it writes back is that block of `attnArr` of the fused array, and the 48
  blocks cover the output, so the output ends holding `attnArr` of the fused array: at row `b · 1024 + n`, column
  `h · 64 + d`, the specification's head output at `(b, h, n, d)`.
-/
import proofs.«152500_j40810779246812_2_alg».proof.Proof.KI.Data
import proofs.«152500_j40810779246812_2_alg».proof.Proof.Val.AttnArrSpec
import proofs.«152500_j40810779246812_2_alg».proof.Proof.Gen.KernelIdeal.Launch
import proofs.«152500_j40810779246812_2_alg».proof.Proof.Gen.KernelIdeal.Points
import Idealize.ShloMosaic.Lib.Pipeline.Value

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

/-! ## The four index maps, over the grid -/

/-- The query window moves with the output window; the key and value windows sit 6 and 12 column blocks to its
    right; the output's block coordinates stay below 8 and 6. -/
theorem idx_facts1 : ∀ t : Fin cfg1.N,
    win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2) + 6
    ∧ win1_2.index t (0 : Fin 2) = win1_3.index t (0 : Fin 2)
    ∧ win1_2.index t (1 : Fin 2) = win1_3.index t (1 : Fin 2) + 12
    ∧ win1_3.index t (0 : Fin 2) < 8
    ∧ win1_3.index t (1 : Fin 2) < 6 :=
  (by decide +kernel : ∀ t : Fin grid1.N, _)

/-- Every block of the output is some point's. -/
theorem idx_onto1 : ∀ (q0 : Fin 8) (q1 : Fin 6), ∃ t : Fin cfg1.N, win1_3.index t = ![q0.val, q1.val] :=
  (by decide +kernel : ∀ (q0 : Fin 8) (q1 : Fin 6), ∃ t : Fin grid1.N, win1_3.index t = ![q0.val, q1.val])

/-! ## An input window's block, read off the fused array -/

/-- Entry `x` of the query window's block at point `t` is the fused array's entry at the block's offsets plus `x`. -/
theorem iblk1_0_apply (c : Dev nD) (t : Fin cfg1.N) (x : S1024x128.Idx) (k : S8192x2304.Idx)
    (hk0 : (k 0).val = win1_0.index t (0 : Fin 2) * 1024 + (x 0).val)
    (hk1 : (k 1).val = win1_0.index t (1 : Fin 2) * 128 + (x 1).val) :
    (iblk1 V c 0 t : Vec Ideal S1024x128 .bf16) x = (V c main_v4 : S8192x2304.Idx → EReal) k := by
  unfold iblk1
  rw [View.read_apply]
  show (V c main_v4 : S8192x2304.Idx → EReal) _ = _
  refine congrArg (V c main_v4 : S8192x2304.Idx → EReal) (funext fun a => Fin.ext ?_)
  match a with
  | ⟨0, _⟩ => show win1_0.index t (0 : Fin 2) * 1024 + 1 * (x 0).val = (k 0).val; rw [hk0]; omega
  | ⟨1, _⟩ => show win1_0.index t (1 : Fin 2) * 128 + 1 * (x 1).val = (k 1).val; rw [hk1]; omega

/-- The same for the key window. -/
theorem iblk1_1_apply (c : Dev nD) (t : Fin cfg1.N) (x : S1024x128.Idx) (k : S8192x2304.Idx)
    (hk0 : (k 0).val = win1_1.index t (0 : Fin 2) * 1024 + (x 0).val)
    (hk1 : (k 1).val = win1_1.index t (1 : Fin 2) * 128 + (x 1).val) :
    (iblk1 V c 1 t : Vec Ideal S1024x128 .bf16) x = (V c main_v4 : S8192x2304.Idx → EReal) k := by
  unfold iblk1
  rw [View.read_apply]
  show (V c main_v4 : S8192x2304.Idx → EReal) _ = _
  refine congrArg (V c main_v4 : S8192x2304.Idx → EReal) (funext fun a => Fin.ext ?_)
  match a with
  | ⟨0, _⟩ => show win1_1.index t (0 : Fin 2) * 1024 + 1 * (x 0).val = (k 0).val; rw [hk0]; omega
  | ⟨1, _⟩ => show win1_1.index t (1 : Fin 2) * 128 + 1 * (x 1).val = (k 1).val; rw [hk1]; omega

/-- The same for the value window. -/
theorem iblk1_2_apply (c : Dev nD) (t : Fin cfg1.N) (x : S1024x128.Idx) (k : S8192x2304.Idx)
    (hk0 : (k 0).val = win1_2.index t (0 : Fin 2) * 1024 + (x 0).val)
    (hk1 : (k 1).val = win1_2.index t (1 : Fin 2) * 128 + (x 1).val) :
    (iblk1 V c 2 t : Vec Ideal S1024x128 .bf16) x = (V c main_v4 : S8192x2304.Idx → EReal) k := by
  unfold iblk1
  rw [View.read_apply]
  show (V c main_v4 : S8192x2304.Idx → EReal) _ = _
  refine congrArg (V c main_v4 : S8192x2304.Idx → EReal) (funext fun a => Fin.ext ?_)
  match a with
  | ⟨0, _⟩ => show win1_2.index t (0 : Fin 2) * 1024 + 1 * (x 0).val = (k 0).val; rw [hk0]; omega
  | ⟨1, _⟩ => show win1_2.index t (1 : Fin 2) * 128 + 1 * (x 1).val = (k 1).val; rw [hk1]; omega

/-! ## What a point writes back -/

/-- WHAT POINT `t` WRITES BACK is block `t` of `attnArr` of the fused array as the region finds it. -/
theorem flushed1_eq (c : Dev nD) (t : Fin cfg1.N) :
    (dat1 (F := Ideal) V c).flushed 3 t
      = ((cfg1.win 3).blk t).view.read (Elt Ideal) (attnArr (V c main_v4 : S8192x2304.Idx → EReal)) := by
  show (cfg1.win 3).cut (grid1.coords t) ((dat1 (F := Ideal) V c).after 3 t) = _
  rw [after1_3]
  obtain ⟨e0, e1, e2, e3, e4, e5, e6, e7⟩ := idx_facts1 t
  funext j
  rw [View.read_apply]
  show out1_3 (F := Ideal) (iblk1 V c 0 t) (iblk1 V c 1 t) (iblk1 V c 2 t) (j : S1024x128.Idx)
    = attnArr (V c main_v4 : S8192x2304.Idx → EReal) (((cfg1.win 3).blk t).view.emb j)
  refine block_eq (V c main_v4 : S8192x2304.Idx → EReal) (iblk1 V c 0 t) (iblk1 V c 1 t) (iblk1 V c 2 t)
    (win1_3.index t (0 : Fin 2)) (win1_3.index t (1 : Fin 2)) e6 e7 ?_ ?_ ?_ (j : S1024x128.Idx)
    (((cfg1.win 3).blk t).view.emb j) ?_ ?_
  · intro x k hk0 hk1
    exact iblk1_0_apply V c t x k (by rw [e0]; exact hk0) (by rw [e1]; exact hk1)
  · intro x k hk0 hk1
    exact iblk1_1_apply V c t x k (by rw [e2]; exact hk0) (by rw [e3]; exact hk1)
  · intro x k hk0 hk1
    exact iblk1_2_apply V c t x k (by rw [e4]; exact hk0) (by rw [e5]; exact hk1)
  · show win1_3.index t (0 : Fin 2) * 1024 + 1 * (j 0).val = win1_3.index t (0 : Fin 2) * 1024 + (j 0).val
    omega
  · show win1_3.index t (1 : Fin 2) * 128 + 1 * (j 1).val = win1_3.index t (1 : Fin 2) * 128 + (j 1).val
    omega

/-! ## The blocks cover the output -/

/-- An index of the output is in point `t`'s block iff each coordinate is in the block's range on its axis. -/
theorem mem_blk1 (t : Fin cfg1.N) (i : S8192x768.Idx) :
    i ∈ ((cfg1.win 3).blk t).view.set ↔ ∀ a : Fin 2, win1_3.index t a * S1024x128.size a ≤ (i a).val
      ∧ (i a).val < win1_3.index t a * S1024x128.size a + S1024x128.size a := by
  show i ∈ ((View.whole main_v5).slice (win1_3.rect t)).set ↔ _
  rw [View.set_slice_whole, Rect.mem_set_unit]
  exact Iff.rfl

/-- Row `r`, column `c` of the output is in the block of the point with coordinates `(r / 1024, c / 128)`. -/
theorem cover1 (i : S8192x768.Idx) :
    ∃ t : Fin cfg1.N, (cfg1.win 3).flush t = true ∧ i ∈ ((cfg1.win 3).blk t).view.set := by
  have hi0 : (i 0).val < 8192 := idx2_lt0 i
  have hi1 : (i 1).val < 768 := idx2_lt1 i
  obtain ⟨t, ht⟩ := idx_onto1 ⟨(i 0).val / 1024, by omega⟩ ⟨(i 1).val / 128, by omega⟩
  have q0 : win1_3.index t (0 : Fin 2) = (i 0).val / 1024 := congrFun ht 0
  have q1 : win1_3.index t (1 : Fin 2) = (i 1).val / 128 := congrFun ht 1
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 128 ≤ (i 1).val ∧ (i 1).val < win1_3.index t (1 : Fin 2) * 128 + 128
    omega

/-! ## The output array -/

/-- THE OUTPUT ARRAY after the region's pipeline: `attnArr` of the fused array as the region finds it. -/
theorem arr1 (c : Dev nD) :
    (dat1 (F := Ideal) V c).arrAt 3 cfg1.N = attnArr (V c main_v4 : S8192x2304.Idx → EReal) :=
  (dat1 (F := Ideal) V c).arrAt_eq_of_cover 3 (attnArr (V c main_v4 : S8192x2304.Idx → EReal))
    (fun t _ => flushed1_eq V c t) cover1

/-- The fused array as the region finds it, by sequence, token and column. -/
def Qv (c : Dev nD) : Fin 8 → Fin 1024 → Fin 2304 → EReal :=
  fun b n j => (V c main_v4 : S8192x2304.Idx → EReal)
    (ix2 (⟨b.val * 1024 + n.val, by have := b.isLt; have := n.isLt; omega⟩ : Fin 8192) j)

theorem Qv_apply (c : Dev nD) (b : Fin 8) (n : Fin 1024) (j : Fin 2304) :
    Qv V c b n j = (V c main_v4 : S8192x2304.Idx → EReal)
      (ix2 (⟨b.val * 1024 + n.val, by have := b.isLt; have := n.isLt; omega⟩ : Fin 8192) j) := rfl

theorem Qv_eq_Qof (c : Dev nD) : Qv V c = Qof (V c main_v4 : S8192x2304.Idx → EReal) := rfl

/-- THE OUTPUT ARRAY by sequence, head, token and feature: the specification's head output of the fused array. -/
theorem final1 (c : Dev nD) (b : Fin 8) (h : Fin 12) (n : Fin 1024) (d : Fin 64) :
    ((dat1 (F := Ideal) V c).arrAt 3 cfg1.N : S8192x768.Idx → EReal)
        (ix2 (⟨b.val * 1024 + n.val, by have := b.isLt; have := n.isLt; omega⟩ : Fin 8192)
             (⟨h.val * 64 + d.val, by have := h.isLt; have := d.isLt; omega⟩ : Fin 768))
      = Cert.Spec.ctx (Qv V c) b h n d := by
  rw [arr1 V c, Qv_eq_Qof]
  exact attnArr_apply _ b h n d

end Cert.KernelIdeal.Val

end
-- ==== Proof.Val.Result.lean ====
/-
  The kernel program's result on the extended reals is the specification: the bridge's three hypotheses — what each
  region's pipeline leaves in its output array — are the three regions' value theorems.
-/
import proofs.«152500_j40810779246812_2_alg».proof.Proof.Val.Bridge
import proofs.«152500_j40810779246812_2_alg».proof.Proof.Val.Lin0Arr
import proofs.«152500_j40810779246812_2_alg».proof.Proof.Val.Lin2Arr
import proofs.«152500_j40810779246812_2_alg».proof.Proof.Val.AttnArray

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand

/-- Region 0's array is the projection of the reshaped input by the transposed weight, plus the bias row. -/
theorem final0_holds : Final0 := fun V c r j => final0 V c (V c main_v0) (V c main_v1) (V c main_v3) rfl rfl rfl r j

/-- Region 1's array holds every head's attention output side by side. -/
theorem final1_holds : Final1 := fun V c b h n d => final1 V c b h n d

/-- Region 2's array is the projection of the attention buffer by the transposed output weight, plus the bias. -/
theorem final2_holds : Final2 := fun V c r j => final2 V c (V c main_v5) (V c main_v2) (V c main_arg3) rfl rfl rfl r j

/-- The result buffer after the whole program, entry by entry, is the specification of the launch arguments. -/
theorem result_eq (m : (ℓ : Loc nD τ sig) → Buf (Elt Ideal) ℓ) (c : Dev nD) (b : Fin 8) (n : Fin 1024) (j : Fin 768) :
    (VEW (F := Ideal) m c (Proc.devRef .tc main_v7) : S8x1024x768.Idx → EReal) (ix3 b n j)
      = Cert.Spec.out (Xm m c) (Wqm m c) (Wom m c) (Bm m c) b n j :=
  result_eq_of m c final0_holds final1_holds final2_holds b n j

end Cert.KernelIdeal.Val

end
-- ==== Proof.lean ====
/-
  Multi-head self-attention over x : [8, 1024, 768] as three tiled kernels — the fused q/k/v projection
  (x · w_qkvᵀ, a zero bias added), the attention of each of the 12 heads (softmax(q kᵀ / 8) v, two heads per grid
  point, read straight out of the fused [8192, 2304] buffer at three column offsets) and the output projection
  (o · w_outᵀ + b_out) — against the same computation written with einsum and softmax over [8, 12, 1024, 64] arrays.

  FRAMES. Each of the two kernel programs is five items in sequence: host operations, three kernel regions, a last
  reshape. Every region's body is run symbolically on whole staging buffers; every region is entered with the
  core's buffers at known contents and left with its output array at what the write-backs leave. In the attention
  region the q, k and v windows read ONE array, whose full share is dealt into three disjoint shares at entry and
  joined again at exit. No item writes an argument, so the arguments end as launched. The reference is a straight
  line of host operations.

  VALUES, on the extended reals. Row r = b·1024 + n of the fused buffer is x[b, n, ·] · w_qkvᵀ (adding the zero bias
  changes nothing); block (b, h2) of the attention buffer holds heads 2·h2 and 2·h2 + 1, each
  Σ_k softmax_k(q·k/8) · v read off columns h·64 + d, 768 + h·64 + d, 1536 + h·64 + d of the fused buffer; the
  last region multiplies by w_outᵀ and adds b_out. The reference's reshape–transpose–slice chain reads the same
  columns, its softmax takes one more maximum against −∞ (the identity), and its sums are the same sums. Both sides
  are the one specification `Cert.Spec.out`. The precondition is not needed: no step uses finiteness.
-/
import proofs.«152500_j40810779246812_2_alg».proof.Defs
import proofs.«152500_j40810779246812_2_alg».proof.Proof.Gen.Kernel
import proofs.«152500_j40810779246812_2_alg».proof.Proof.Gen.KernelIdeal
import proofs.«152500_j40810779246812_2_alg».proof.Proof.Gen.ReferenceIdeal
import proofs.«152500_j40810779246812_2_alg».proof.Proof.Gen.ReferenceIdeal.Read
import proofs.«152500_j40810779246812_2_alg».proof.Proof.Gen.Pre_finite_inputs
import proofs.«152500_j40810779246812_2_alg».proof.Proof.K.Run
import proofs.«152500_j40810779246812_2_alg».proof.Proof.KI.Run
import proofs.«152500_j40810779246812_2_alg».proof.Proof.Ref.Out
import proofs.«152500_j40810779246812_2_alg».proof.Proof.Val.Result
import Idealize.ShloMosaic.Adequacy
import Idealize.ShloMosaic.Init

noncomputable section

namespace Cert.Proof

open Idealize.ShloMosaic Idealize.ShloMosaic.TcCoe Idealize.SL.Sem

/-- The word-level kernel program runs and keeps its arguments: its run with the result dropped. -/
theorem frame_k : Cert.frame_Kernel := fun m ρ _ =>
  (θ_run Cert.Kernel.defs _ _).mono (fun _ h c => (h c).2) (Cert.Kernel.Hand.run_main (F := Bits) m ρ)

/-- The same program read on the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the specification's array of the arguments. -/
theorem algebraic : Cert.algebraic_KernelIdeal_ReferenceIdeal := by
  intro m ρ m' ρ' _ hagree
  refine ⟨fun c => Cert.KernelIdeal.Hand.VEW (F := Ideal) m c (Proc.devRef .tc Cert.KernelIdeal.main_v7),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2]
  funext i
  obtain ⟨b, n, j, rfl⟩ : ∃ (b : Fin 8) (n : Fin 1024) (j : Fin 768), i = ValueIdx.ix3 b n j := ⟨i 0, i 1, i 2, ValueIdx.eq_ix3 i⟩
  rw [Cert.RefValue.ref_eq]
  exact (Cert.KernelIdeal.Val.result_eq m c b n j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
